-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x128 .f32) (main_arg15 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S64x128 .f32) (main_arg13 : FVec F S64 .f32) (main_arg14 : FVec F S64x128 .f32) (main_arg15 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S64x128 .f32) (main_arg13 : FVec F S64 .f32) (main_arg14 : FVec F S64x128 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S64x128 .f32) (main_arg13 : FVec F S64 .f32) (main_arg14 : FVec F S64x128 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S_ : Shape := ⟨0, ![]⟩
abbrev S800000x1 : Shape := ⟨2, ![800000, 1]⟩
abbrev S800000x128 : Shape := ⟨2, ![800000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 66
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64x128, .f32⟩
  | .hbm, ⟨15, _⟩ => ⟨S64, .f32⟩
  | .hbm, ⟨16, _⟩ => ⟨S128x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x1, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S1x128, .f32⟩
  | .hbm, ⟨40, _⟩ => ⟨S50000x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S128x64, .f32⟩
  | .hbm, ⟨62, _⟩ => ⟨S128x64, .f32⟩
  | .hbm, ⟨63, _⟩ => ⟨S1x64, .f32⟩
  | .hbm, ⟨64, _⟩ => ⟨S1x64, .f32⟩
  | .hbm, ⟨65, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S1x64, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2_0 : Ref sig .tc := ⟨.hbm, 18, rfl⟩
abbrev main_v2_1 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_c_1 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S50000 : Shape := ⟨1, ![50000]⟩
abbrev S50000x1 : Shape := ⟨2, ![50000, 1]⟩
abbrev S1x128 : Shape := ⟨2, ![1, 128]⟩
abbrev S800000x1 : Shape := ⟨2, ![800000, 1]⟩
abbrev S800000x128 : Shape := ⟨2, ![800000, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64x128, .f32⟩
  | .hbm, ⟨15, _⟩ => ⟨S64, .f32⟩
  | .hbm, ⟨16, _⟩ => ⟨S50000x128, .f32⟩
  | .hbm, ⟨17, _⟩ => ⟨S_, .f32⟩
  | .hbm, ⟨18, _⟩ => ⟨S50000, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S50000x128, .f32⟩
  | .hbm, ⟨25, _⟩ => ⟨S50000x128, .f32⟩
  | .hbm, ⟨26, _⟩ => ⟨S128x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S128x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S128x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S800000x1, .f32⟩
  | .hbm, ⟨101, _⟩ => ⟨S800000x128, .f32⟩
  | .hbm, ⟨102, _⟩ => ⟨S800000x128, .f32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S128x64, .f32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S128x64, .f32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call1_cst : Ref sig .tc := ⟨.hbm, 31, rfl⟩
abbrev main_call1_v0 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call2_cst : Ref sig .tc := ⟨.hbm, 67, rfl⟩
abbrev main_call2_v0 : Ref sig .tc := ⟨.hbm, 68, rfl⟩
abbrev main_v39 : Ref sig .tc := ⟨.hbm, 69, rfl⟩
abbrev main_call3_v0 : Ref sig .tc := ⟨.hbm, 70, rfl⟩
abbrev main_call3_cst : Ref sig .tc := ⟨.hbm, 71, rfl⟩
abbrev main_call3_v1 : Ref sig .tc := ⟨.hbm, 72, rfl⟩
abbrev main_call3_v2 : Ref sig .tc := ⟨.hbm, 73, rfl⟩
abbrev main_v40 : Ref sig .tc := ⟨.hbm, 74, rfl⟩
abbrev main_cst_4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_call4_cst : Ref sig .tc := ⟨.hbm, 85, rfl⟩
abbrev main_call4_v0 : Ref sig .tc := ⟨.hbm, 86, rfl⟩
abbrev main_v50 : Ref sig .tc := ⟨.hbm, 87, rfl⟩
abbrev main_cst_5 : Ref sig .tc := ⟨.hbm, 88, rfl⟩
abbrev main_v51 : Ref sig .tc := ⟨.hbm, 89, rfl⟩
abbrev main_v52 : Ref sig .tc := ⟨.hbm, 90, rfl⟩
abbrev main_c_6 : Ref sig .tc := ⟨.hbm, 91, rfl⟩
abbrev main_v53 : Ref sig .tc := ⟨.hbm, 92, rfl⟩
abbrev main_v54 : Ref sig .tc := ⟨.hbm, 93, rfl⟩
abbrev main_c_7 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_8 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_9 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run with its result NAMED.

  The program is four pipelined regions among stretches of host operations. Its frame run (the generated one) ends, on
  every core, with every unscoped buffer at the contents of the last segment boundary, `Gen.W8`: the fold through
  the host stretches and the regions' write-backs, from the launch memory. Here the same run is posted once more keeping,
  beside the argument arrays (unchanged), the result buffer `main_v41` at that last boundary's contents. What those
  contents are as a function of the arguments is read off the fold elsewhere.
-/
import proofs.«163570_j29978871726568_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates without a fault; the result buffer then holds the last
    boundary's contents at `main_v41`, and the argument arrays are as launched. -/
theorem run_named : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

/-- info: 'Cert.KernelIdeal.RunNamed.run_named' depends on axioms: [propext, Classical.choice, Quot.sound] -/
#guard_msgs in #print axioms run_named

end Cert.KernelIdeal.RunNamed

end
-- ==== Proof.Spec.lean ====
/-
  The mathematics of the two programs, stated once, index by index, on the extended reals.

  One graph layer takes node features `x : [50000, 128]`, a pooling weight (as the layer stages it, already transposed:
  `wT k c`), a pooling bias as a row `[1, 128]`, and two output projections with their bias rows:

    * `nrm x r`       the Euclidean norm of row `r`, clipped below by the literal `eps`;
    * `pool x wT b`   `h(r, c) = max (∑ₖ (x(r,k) / nrm x r) · wT(k,c) + b(0,c)) 0`: the normalised row through the pooling
                        layer and a rectifier;
    * the aggregation `agg` (a gather of rows by source node, a scaling by the edge weight, a scatter-add by target node)
      is the SAME chain of host operations in both programs and enters here only as a function of the array it is given;
    * `comb`           `(∑ₖ h(r,k)·w1T(k,c) + b1(0,c)) + (∑ₖ rt(a(r,k))·w2T(k,c) + b2(0,c))`, where `a` is the aggregate of
                        `sqf ∘ h` and `rt` undoes the power mean's exponent.

  The two programs differ only in how they spell the power mean of exponent 2: one squares by a product and takes the
  root as `sqrt (max a 0)`, the other uses the general power function with exponents `2` and `1/2`. So the layer is
  stated over the two scalar functions `sqf` and `rt`, and each program's value is an instance.
-/
import Idealize.ShloMosaic.PureOps.Ideal
import Idealize.ShloMosaic.Lib.ValueIdx

noncomputable section

namespace Cert.Sage

open Idealize.ShloMosaic Idealize.ShloMosaic.ValueIdx

/-- The arrays' index types, by their literal extents. -/
abbrev Nodes : Shape := ⟨2, ![50000, 128]⟩
abbrev Out64 : Shape := ⟨2, ![50000, 64]⟩
abbrev Mat (a b : Nat) : Shape := ⟨2, ![a, b]⟩

/-- The clip of the row norm: the single-precision literal nearest `1e-12`, read exactly. -/
def eps : EReal := Ideal.ofBits .f32 0x2B8CBCCC#32

/-- The exponents of the power mean as the general power function takes them: the literals `2.0` and `0.5`. -/
def two : EReal := Ideal.ofBits .f32 0x40000000#32
def half : EReal := Ideal.ofBits .f32 0x3F000000#32

/-- Row `r`'s Euclidean norm, clipped below by `eps`. -/
def nrm (x : Nodes.Idx → EReal) (r : Fin 50000) : EReal :=
  max (Ideal.sqrt (∑ j : Fin 128, x (ix2 r j) * x (ix2 r j))) eps

/-- The pooled feature at node `r`, channel `c`. -/
def poolAt (x : Nodes.Idx → EReal) (wT : (Mat 128 128).Idx → EReal) (b : (Mat 1 128).Idx → EReal)
    (r : Fin 50000) (c : Fin 128) : EReal :=
  max ((∑ k : Fin 128, Ideal.div (x (ix2 r k)) (nrm x r) * wT (ix2 k c)) + b (ix2 (0 : Fin 1) c)) 0

/-- The pooled features as an array. -/
def pool (x : Nodes.Idx → EReal) (wT : (Mat 128 128).Idx → EReal) (b : (Mat 1 128).Idx → EReal) : Nodes.Idx → EReal :=
  fun i => poolAt x wT b (i 0) (i 1)

/-- The two projections and their biases at node `r`, output channel `c`, for an output of `P` channels; `rt` is
    applied to the aggregate before its projection. -/
def combAt {P : Nat} (rt : EReal → EReal) (h a : Nodes.Idx → EReal)
    (w1T : (Mat 128 P).Idx → EReal) (b1 : (Mat 1 P).Idx → EReal)
    (w2T : (Mat 128 P).Idx → EReal) (b2 : (Mat 1 P).Idx → EReal) (r : Fin 50000) (c : Fin P) : EReal :=
  ((∑ k : Fin 128, h (ix2 r k) * w1T (ix2 k c)) + b1 (ix2 (0 : Fin 1) c))
    + ((∑ k : Fin 128, rt (a (ix2 r k)) * w2T (ix2 k c)) + b2 (ix2 (0 : Fin 1) c))

/-- A hidden layer's output: 128 channels, rectified. -/
def comb128 (rt : EReal → EReal) (h a : Nodes.Idx → EReal)
    (w1T : (Mat 128 128).Idx → EReal) (b1 : (Mat 1 128).Idx → EReal)
    (w2T : (Mat 128 128).Idx → EReal) (b2 : (Mat 1 128).Idx → EReal) : Nodes.Idx → EReal :=
  fun i => max (combAt rt h a w1T b1 w2T b2 (i 0) (i 1)) 0

/-- The last layer's output: 64 channels, no rectifier. -/
def comb64 (rt : EReal → EReal) (h a : Nodes.Idx → EReal)
    (w1T : (Mat 128 64).Idx → EReal) (b1 : (Mat 1 64).Idx → EReal)
    (w2T : (Mat 128 64).Idx → EReal) (b2 : (Mat 1 64).Idx → EReal) : Out64.Idx → EReal :=
  fun i => combAt rt h a w1T b1 w2T b2 (i 0) (i 1)

/-- The scalar functions as the kernel spells them … -/
def sqMul (h : EReal) : EReal := h * h
def rtSqrt (a : EReal) : EReal := Ideal.sqrt (max a 0)
/-- … and as the reference does. -/
def sqPow (h : EReal) : EReal := Ideal.pow h two
def rtPow (a : EReal) : EReal := Ideal.pow a half

/-- A weight `[a, b]` read transposed, and a bias `[n]` read as a row `[1, n]`. -/
def tr {a b : Nat} (w : (Mat a b).Idx → EReal) : (Mat b a).Idx → EReal := fun i => w (ix2 (i 1) (i 0))
def row {n : Nat} (b : (⟨1, ![n]⟩ : Shape).Idx → EReal) : (Mat 1 n).Idx → EReal := fun i => b (ix1 (i 1))

/-- The hidden layer and the last layer, over an aggregation `agg`. -/
def layer128 (sqf rt : EReal → EReal) (agg : (Nodes.Idx → EReal) → Nodes.Idx → EReal) (x : Nodes.Idx → EReal)
    (wT : (Mat 128 128).Idx → EReal) (b : (Mat 1 128).Idx → EReal)
    (w1T : (Mat 128 128).Idx → EReal) (b1 : (Mat 1 128).Idx → EReal)
    (w2T : (Mat 128 128).Idx → EReal) (b2 : (Mat 1 128).Idx → EReal) : Nodes.Idx → EReal :=
  comb128 rt (pool x wT b) (agg fun i => sqf (pool x wT b i)) w1T b1 w2T b2

def layer64 (sqf rt : EReal → EReal) (agg : (Nodes.Idx → EReal) → Nodes.Idx → EReal) (x : Nodes.Idx → EReal)
    (wT : (Mat 128 128).Idx → EReal) (b : (Mat 1 128).Idx → EReal)
    (w1T : (Mat 128 64).Idx → EReal) (b1 : (Mat 1 64).Idx → EReal)
    (w2T : (Mat 128 64).Idx → EReal) (b2 : (Mat 1 64).Idx → EReal) : Out64.Idx → EReal :=
  comb64 rt (pool x wT b) (agg fun i => sqf (pool x wT b i)) w1T b1 w2T b2

end Cert.Sage

end
-- ==== Proof.Pool0.lean ====
/-
  The pooling region's two output arrays as whole-array functions of the arrays the region finds.

  The body takes a block of 5000 node rows `x`, the whole pooling weight `wT` and the whole bias row `b`, and stores
  `h(p, q) = max (∑ₖ (x(p,k) / max (√(∑ⱼ x(p,j)²)) ε) · wT(k,q) + b(0,q)) 0` and its square `h·h`. On the extended reals the
  roundings to the short format on the way into the product are the identity, so `h` is the specification's pooled
  feature of the block's rows. Grid point `t` handles rows `5000 t … 5000 t + 4999`; the ten blocks tile the
  `[50000, 128]` arrays, so after the region the first output holds the pooled features and the second their squares.

  Order: the layout operations of a kept-dimension row statistic at an index; the lane sum and the matrix product at an
  index; the stored values at an index of the block; the blocks as rows of the arrays; what each point writes back; the
  cover; the two arrays.
-/
import proofs.«163570_j29978871726568_1_alg».proof.Proof.Gen.KernelIdeal.Frame
import proofs.«163570_j29978871726568_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pool0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Layout operations of a kept-dimension row statistic, read at an index -/

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's two contractions, read at an index -/

/-- The sum of a `[5000, 128]` block along its lanes, at row `p`. -/
theorem laneSum_apply (src : FVec Ideal S5000x128 .f32) (h : S5000x128.Reduces [1] S5000) (hφ : FKind.Formats .f32)
    (hacc : (0x00000000#32 : BitVec 32) = FKind.add.neutral .f32 hφ) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- The left operand's index at output `(p, q)` and contraction index `c`: row `p` … -/
theorem lhsIdx_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … lane `c`. -/
theorem lhsIdx_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's: row `c` … -/
theorem rhsIdx_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- … column `q`. -/
theorem rhsIdx_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product with the weight, accumulated from zero: at `(p, q)` the sum over the contracted axis. -/
theorem matmul_ix2_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhsIdx_0 _ _
      | ⟨1, _⟩ => exact (lhsIdx_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhsIdx_0 _ _).trans hk
      | ⟨1, _⟩ => exact rhsIdx_1 _ _)
  rw [el, er]

/-! ## The body's value at an index of its block -/

/-- The pooled feature the body stores, at row `p` and channel `q` of the block: the row divided by its clipped norm,
    through the weight, plus the bias, rectified. -/
theorem pay1_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = max ((∑ k : Fin 128, Ideal.div (x0 (ix2 p k)) (max (Ideal.sqrt (∑ j : Fin 128, x0 (ix2 p j) * x0 (ix2 p j))) Cert.Sage.eps)
                * x1 (ix2 k q)) + x2 (ix2 (0 : Fin 1) q)) 0 := by
  unfold k0_pay1
  dsimp only
  refine congrArg₂ max (congrArg₂ (· + ·) ?_ ?_) ?_
  · refine (matmul_ix2_apply _ _ p q).trans ?_
    refine Finset.sum_congr rfl fun k _ => congrArg₂ (· * ·) ?_ ?_
    · refine congrArg₂ Ideal.div rfl ?_
      refine (broadcastTo_a1_ab_apply _ _ p k).trans ?_
      refine congrArg₂ max (congrArg Ideal.sqrt ?_) rfl
      refine (shapeCast_a_a1_apply _ _ p (0 : Fin 1)).trans ?_
      refine (laneSum_apply _ _ _ _ p).trans ?_
      rfl
    · exact congrFun (shapeCast_self x1 _) (ix2 k q)
  · refine (broadcastTo_1b_ab_apply _ _ p q).trans ?_
    exact congrFun (shapeCast_self x2 _) (ix2 (0 : Fin 1) q)
  · exact Ideal.ofBits_zero_f32

/-- The second stored value is the first one's square. -/
theorem pay2_apply (x0 : Vec Ideal S5000x128 .f32) (x1 : Vec Ideal S128x128 .f32) (x2 : Vec Ideal S1x128 .f32)
    (y : S5000x128.Idx) :
    k0_pay2 (F := Ideal) x0 x1 x2 y = k0_pay1 (F := Ideal) x0 x1 x2 y * k0_pay1 (F := Ideal) x0 x1 x2 y := rfl

/-! ## The body's value as a block of the whole-array function -/

/-- When the three loaded blocks are rows `r₀ …` of the features, the whole weight and the whole bias row, the stored
    value at `(p, q)` is the pooled feature of node `r`, the block's row `p`. -/
theorem pay1_pool (X : Cert.Sage.Nodes.Idx → EReal) (W : (Cert.Sage.Mat 128 128).Idx → EReal) (B : (Cert.Sage.Mat 1 128).Idx → EReal)
    (x0 : Vec Ideal S5000x128 .f32) (x1 : Vec Ideal S128x128 .f32) (x2 : Vec Ideal S1x128 .f32)
    (r : Fin 50000) (p : Fin 5000) (q : Fin 128)
    (h0 : ∀ k : Fin 128, x0 (ix2 p k) = X (ix2 r k))
    (h1 : ∀ k : Fin 128, x1 (ix2 k q) = W (ix2 k q))
    (h2 : x2 (ix2 (0 : Fin 1) q) = B (ix2 (0 : Fin 1) q)) :
    k0_pay1 (F := Ideal) x0 x1 x2 (ix2 p q) = Cert.Sage.pool X W B (ix2 r q) := by
  refine (pay1_apply x0 x1 x2 p q).trans ?_
  show _ = Cert.Sage.poolAt X W B r q
  unfold Cert.Sage.poolAt Cert.Sage.nrm
  rw [h2]
  refine congrArg₂ max (congrArg₂ (· + ·) (Finset.sum_congr rfl fun k _ => ?_) rfl) rfl
  rw [h0 k, h1 k]
  refine congrArg₂ (· * ·) (congrArg₂ Ideal.div rfl (congrArg₂ max (congrArg Ideal.sqrt (Finset.sum_congr rfl fun j _ => ?_)) rfl)) rfl
  rw [h0 j]

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the grid: the features' and the two outputs' blocks move with the point along the
    rows, the weight's and the bias's stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features' block at point `t` is rows `5000 t …` of the features. -/
theorem xblk_apply (c : Dev nD) (t : Fin cfg0.N) (p : Fin 5000) (k : Fin 128) (r : Fin 50000) (hr : r.val = t.val * 5000 + p.val) :
    (iblk0 V c 0 t : Vec Ideal S5000x128 .f32) (ix2 p k)
      = (V c (Pipeline.arrRef spec0 0) : Cert.Sage.Nodes.Idx → EReal) (ix2 r k) := by
  obtain ⟨e0, e1, -⟩ := idx_facts t
  have h : ((cfg0.win 0).blk t).view.emb (ix2 p k) = ix2 r k := by
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  show V c (Pipeline.arrRef spec0 0) (((cfg0.win 0).blk t).view.emb (ix2 p k)) = _
  rw [h]

/-- The weight's block at every point is the whole weight. -/
theorem wblk_apply (c : Dev nD) (t : Fin cfg0.N) (k q : Fin 128) :
    (iblk0 V c 1 t : Vec Ideal S128x128 .f32) (ix2 k q)
      = (V c (Pipeline.arrRef spec0 1) : (Cert.Sage.Mat 128 128).Idx → EReal) (ix2 k q) := by
  obtain ⟨-, -, e0, e1, -⟩ := idx_facts t
  have h : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  show V c (Pipeline.arrRef spec0 1) (((cfg0.win 1).blk t).view.emb (ix2 k q)) = _
  rw [h]

/-- The bias's block at every point is the whole bias row. -/
theorem bblk_apply (c : Dev nD) (t : Fin cfg0.N) (u : Fin 1) (q : Fin 128) :
    (iblk0 V c 2 t : Vec Ideal S1x128 .f32) (ix2 u q)
      = (V c (Pipeline.arrRef spec0 2) : (Cert.Sage.Mat 1 128).Idx → EReal) (ix2 u q) := by
  obtain ⟨-, -, -, -, e0, e1, -⟩ := idx_facts t
  have h : ((cfg0.win 2).blk t).view.emb (ix2 u q) = ix2 u q := by
    funext a; apply Fin.ext
    match a with
    | ⟨0, _⟩ => show win0_2.index t (0 : Fin 2) * 1 + 1 * u.val = u.val; omega
    | ⟨1, _⟩ => show win0_2.index t (1 : Fin 2) * 128 + 1 * q.val = q.val; omega
  show V c (Pipeline.arrRef spec0 2) (((cfg0.win 2).blk t).view.emb (ix2 u q)) = _
  rw [h]

/-- The first stored value at point `t`, at `(p, q)` of its block, is the pooled feature of node `5000 t + p`. -/
theorem stored_apply (c : Dev nD) (t : Fin cfg0.N) (p : Fin 5000) (q : Fin 128) (r : Fin 50000) (hr : r.val = t.val * 5000 + p.val) :
    k0_pay1 (F := Ideal) (iblk0 V c 0 t) (iblk0 V c 1 t) (iblk0 V c 2 t) (ix2 p q)
      = Cert.Sage.pool (V c (Pipeline.arrRef spec0 0)) (V c (Pipeline.arrRef spec0 1)) (V c (Pipeline.arrRef spec0 2)) (ix2 r q) :=
  pay1_pool (V c (Pipeline.arrRef spec0 0)) (V c (Pipeline.arrRef spec0 1)) (V c (Pipeline.arrRef spec0 2))
    (iblk0 V c 0 t) (iblk0 V c 1 t) (iblk0 V c 2 t) r p q
    (fun k => xblk_apply V c t p k r hr) (fun k => wblk_apply V c t k q) (bblk_apply V c t (0 : Fin 1) q)

/-- Where an element of an output block sits in its array: row `5000 t + p`, channel `q`. -/
theorem oblk3_emb (t : Fin cfg0.N) (p : Fin 5000) (q : Fin 128) (r : Fin 50000) (hr : r.val = t.val * 5000 + p.val) :
    ((cfg0.win 3).blk t).view.emb (ix2 p q) = ix2 r q := by
  obtain ⟨-, -, -, -, -, -, e0, e1, -⟩ := idx_facts t
  funext a; apply Fin.ext
  match a with
  | ⟨0, _⟩ => show win0_3.index t (0 : Fin 2) * 5000 + 1 * p.val = r.val; omega
  | ⟨1, _⟩ => show win0_3.index t (1 : Fin 2) * 128 + 1 * q.val = q.val; omega

theorem oblk4_emb (t : Fin cfg0.N) (p : Fin 5000) (q : Fin 128) (r : Fin 50000) (hr : r.val = t.val * 5000 + p.val) :
    ((cfg0.win 4).blk t).view.emb (ix2 p q) = ix2 r q := by
  obtain ⟨-, -, -, -, -, -, -, -, e0, e1⟩ := idx_facts t
  funext a; apply Fin.ext
  match a with
  | ⟨0, _⟩ => show win0_4.index t (0 : Fin 2) * 5000 + 1 * p.val = r.val; omega
  | ⟨1, _⟩ => show win0_4.index t (1 : Fin 2) * 128 + 1 * q.val = q.val; omega

/-- A point's row range lies inside the array. -/
theorem row_lt (t : Fin cfg0.N) (p : Fin 5000) : t.val * 5000 + p.val < 50000 := by
  have hN : grid0.N = 10 := N_0
  have ht : t.val < grid0.N := t.isLt
  have hp := p.isLt
  omega

/-! ## What each point writes back -/

/-- Point `t` writes back, to the first output, block `t` of the pooled features of the arrays as the region finds them. -/
theorem flushed3_eq (c : Dev nD) (t : Fin cfg0.N) :
    (dat0 V c).flushed 3 t = ((cfg0.win 3).blk t).view.read (Elt Ideal)
      (Cert.Sage.pool (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (ix2 p q)
    = Cert.Sage.pool (V c (Pipeline.arrRef spec0 0)) (V c (Pipeline.arrRef spec0 1)) (V c (Pipeline.arrRef spec0 2)) (((cfg0.win 3).blk t).view.emb (ix2 p q))
  rw [oblk3_emb t p q ⟨t.val * 5000 + p.val, row_lt t p⟩ rfl]
  exact stored_apply V c t p q ⟨t.val * 5000 + p.val, row_lt t p⟩ rfl

/-- … and to the second output, block `t` of their squares. -/
theorem flushed4_eq (c : Dev nD) (t : Fin cfg0.N) :
    (dat0 V c).flushed 4 t = ((cfg0.win 4).blk t).view.read (Elt Ideal)
      (fun i => Cert.Sage.sqMul (Cert.Sage.pool (V c (Pipeline.arrRef spec0 0)) (V c (Pipeline.arrRef spec0 1)) (V c (Pipeline.arrRef spec0 2)) i)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (iblk0 V c 2 t) (ix2 p q)
      * k0_pay1 (F := Ideal) (iblk0 V c 0 t) (iblk0 V c 1 t) (iblk0 V c 2 t) (ix2 p q)
    = Cert.Sage.sqMul (Cert.Sage.pool (V c (Pipeline.arrRef spec0 0)) (V c (Pipeline.arrRef spec0 1)) (V c (Pipeline.arrRef spec0 2)) (((cfg0.win 4).blk t).view.emb (ix2 p q)))
  rw [oblk4_emb t p q ⟨t.val * 5000 + p.val, row_lt t p⟩ rfl, stored_apply V c t p q ⟨t.val * 5000 + p.val, row_lt t p⟩ rfl]
  rfl

/-! ## The blocks cover the arrays -/

/-- An index of the array is in point `t`'s block iff each coordinate is in the block's range on its axis. -/
theorem mem_blk3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2_0).slice (win0_3.rect t)).set ↔ _
  rw [View.set_slice_whole, Rect.mem_set_unit]
  exact Iff.rfl

theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v2_1).slice (win0_4.rect t)).set ↔ _
  rw [View.set_slice_whole, Rect.mem_set_unit]
  exact Iff.rfl

/-- The point whose block holds row `r`: `r / 5000`. -/
theorem pointOf_lt (i : S50000x128.Idx) : (i 0).val / 5000 < cfg0.N := by
  have hN : cfg0.N = 10 := N_0
  have hi0 : (i 0).val < 50000 := (i 0).isLt
  rw [hN]; omega

/-- Every index of the first output is in the block of the point that handles its row. -/
theorem cover3 (i : S50000x128.Idx) : ∃ t : Fin cfg0.N, (cfg0.win 3).flush t = true ∧ i ∈ ((cfg0.win 3).blk t).view.set := by
  have hi1 : (i 1).val < 128 := (i 1).isLt
  refine ⟨⟨(i 0).val / 5000, pointOf_lt i⟩, flush0_3 _, ?_⟩
  rw [mem_blk3]
  obtain ⟨-, -, -, -, -, -, e0, e1, -⟩ := idx_facts ⟨(i 0).val / 5000, pointOf_lt i⟩
  have e0' : win0_3.index ⟨(i 0).val / 5000, pointOf_lt i⟩ (0 : Fin 2) = (i 0).val / 5000 := e0
  intro a
  match a with
  | ⟨0, _⟩ =>
    show win0_3.index ⟨(i 0).val / 5000, pointOf_lt i⟩ (0 : Fin 2) * 5000 ≤ (i 0).val ∧ (i 0).val < win0_3.index ⟨(i 0).val / 5000, pointOf_lt i⟩ (0 : Fin 2) * 5000 + 5000
    omega
  | ⟨1, _⟩ =>
    show win0_3.index ⟨(i 0).val / 5000, pointOf_lt i⟩ (1 : Fin 2) * 128 ≤ (i 1).val ∧ (i 1).val < win0_3.index ⟨(i 0).val / 5000, pointOf_lt i⟩ (1 : Fin 2) * 128 + 128
    omega

theorem cover4 (i : S50000x128.Idx) : ∃ t : Fin cfg0.N, (cfg0.win 4).flush t = true ∧ i ∈ ((cfg0.win 4).blk t).view.set := by
  have hi1 : (i 1).val < 128 := (i 1).isLt
  refine ⟨⟨(i 0).val / 5000, pointOf_lt i⟩, flush0_4 _, ?_⟩
  rw [mem_blk4]
  obtain ⟨-, -, -, -, -, -, -, -, e0, e1⟩ := idx_facts ⟨(i 0).val / 5000, pointOf_lt i⟩
  have e0' : win0_4.index ⟨(i 0).val / 5000, pointOf_lt i⟩ (0 : Fin 2) = (i 0).val / 5000 := e0
  intro a
  match a with
  | ⟨0, _⟩ =>
    show win0_4.index ⟨(i 0).val / 5000, pointOf_lt i⟩ (0 : Fin 2) * 5000 ≤ (i 0).val ∧ (i 0).val < win0_4.index ⟨(i 0).val / 5000, pointOf_lt i⟩ (0 : Fin 2) * 5000 + 5000
    omega
  | ⟨1, _⟩ =>
    show win0_4.index ⟨(i 0).val / 5000, pointOf_lt i⟩ (1 : Fin 2) * 128 ≤ (i 1).val ∧ (i 1).val < win0_4.index ⟨(i 0).val / 5000, pointOf_lt i⟩ (1 : Fin 2) * 128 + 128
    omega

/-! ## The two output arrays after the region -/

/-- The first output array ends holding the pooled features of the arrays as the region finds them. -/
theorem final0_3 (c : Dev nD) :
    (dat0 V c).arrAt 3 cfg0.N
      = Cert.Sage.pool (V c (Pipeline.arrRef spec0 0)) (V c (Pipeline.arrRef spec0 1)) (V c (Pipeline.arrRef spec0 2)) :=
  (dat0 V c).arrAt_eq_of_cover 3 _ (fun t _ => flushed3_eq V c t) cover3

/-- The second output array ends holding their squares. -/
theorem final0_4 (c : Dev nD) :
    (dat0 V c).arrAt 4 cfg0.N
      = fun i => Cert.Sage.sqMul (Cert.Sage.pool (V c (Pipeline.arrRef spec0 0)) (V c (Pipeline.arrRef spec0 1)) (V c (Pipeline.arrRef spec0 2)) i) :=
  (dat0 V c).arrAt_eq_of_cover 4 _ (fun t _ => flushed4_eq V c t) cover4

end Cert.KernelIdeal.Pool0

end
-- ==== Proof.Pool2.lean ====
/-
  The pooling region's two output arrays as whole-array functions of the arrays the region finds.

  The body takes a block of 5000 node rows `x`, the whole pooling weight `wT` and the whole bias row `b`, and stores
  `h(p, q) = max (∑ₖ (x(p,k) / max (√(∑ⱼ x(p,j)²)) ε) · wT(k,q) + b(0,q)) 0` and its square `h·h`. On the extended reals the
  roundings to the short format on the way into the product are the identity, so `h` is the specification's pooled
  feature of the block's rows. Grid point `t` handles rows `5000 t … 5000 t + 4999`; the ten blocks tile the
  `[50000, 128]` arrays, so after the region the first output holds the pooled features and the second their squares.

  Order: the layout operations of a kept-dimension row statistic at an index; the lane sum and the matrix product at an
  index; the stored values at an index of the block; the blocks as rows of the arrays; what each point writes back; the
  cover; the two arrays.
-/
import proofs.«163570_j29978871726568_1_alg».proof.Proof.Gen.KernelIdeal.Frame
import proofs.«163570_j29978871726568_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pool2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Layout operations of a kept-dimension row statistic, read at an index -/

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's two contractions, read at an index -/

/-- The sum of a `[5000, 128]` block along its lanes, at row `p`. -/
theorem laneSum_apply (src : FVec Ideal S5000x128 .f32) (h : S5000x128.Reduces [1] S5000) (hφ : FKind.Formats .f32)
    (hacc : (0x00000000#32 : BitVec 32) = FKind.add.neutral .f32 hφ) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- The left operand's index at output `(p, q)` and contraction index `c`: row `p` … -/
theorem lhsIdx_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … lane `c`. -/
theorem lhsIdx_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's: row `c` … -/
theorem rhsIdx_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- … column `q`. -/
theorem rhsIdx_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product with the weight, accumulated from zero: at `(p, q)` the sum over the contracted axis. -/
theorem matmul_ix2_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhsIdx_0 _ _
      | ⟨1, _⟩ => exact (lhsIdx_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhsIdx_0 _ _).trans hk
      | ⟨1, _⟩ => exact rhsIdx_1 _ _)
  rw [el, er]

/-! ## The body's value at an index of its block -/

/-- The pooled feature the body stores, at row `p` and channel `q` of the block: the row divided by its clipped norm,
    through the weight, plus the bias, rectified. -/
theorem pay1_apply (x0 : Vec Ideal S5000x128 .f32) (x1 : Vec Ideal S128x128 .f32) (x2 : Vec Ideal S1x128 .f32)
    (p : Fin 5000) (q : Fin 128) :
    k2_pay1 (F := Ideal) x0 x1 x2 (ix2 p q)
      = max ((∑ k : Fin 128, Ideal.div (x0 (ix2 p k)) (max (Ideal.sqrt (∑ j : Fin 128, x0 (ix2 p j) * x0 (ix2 p j))) Cert.Sage.eps)
                * x1 (ix2 k q)) + x2 (ix2 (0 : Fin 1) q)) 0 := by
  unfold k2_pay1
  dsimp only
  refine congrArg₂ max (congrArg₂ (· + ·) ?_ ?_) ?_
  · refine (matmul_ix2_apply _ _ p q).trans ?_
    refine Finset.sum_congr rfl fun k _ => congrArg₂ (· * ·) ?_ ?_
    · refine congrArg₂ Ideal.div (congrFun (shapeCast_self x0 _) (ix2 p k)) ?_
      refine (broadcastTo_a1_ab_apply _ _ p k).trans ?_
      refine congrArg₂ max (congrArg Ideal.sqrt ?_) rfl
      refine (shapeCast_a_a1_apply _ _ p (0 : Fin 1)).trans ?_
      refine (laneSum_apply _ _ _ _ p).trans ?_
      rw [shapeCast_self x0]; rfl
    · exact congrFun (shapeCast_self x1 _) (ix2 k q)
  · refine (broadcastTo_1b_ab_apply _ _ p q).trans ?_
    exact congrFun (shapeCast_self x2 _) (ix2 (0 : Fin 1) q)
  · exact Ideal.ofBits_zero_f32

/-- The second stored value is the first one's square. -/
theorem pay2_apply (x0 : Vec Ideal S5000x128 .f32) (x1 : Vec Ideal S128x128 .f32) (x2 : Vec Ideal S1x128 .f32)
    (y : S5000x128.Idx) :
    k2_pay2 (F := Ideal) x0 x1 x2 y = k2_pay1 (F := Ideal) x0 x1 x2 y * k2_pay1 (F := Ideal) x0 x1 x2 y := rfl

/-! ## The body's value as a block of the whole-array function -/

/-- When the three loaded blocks are rows `r₀ …` of the features, the whole weight and the whole bias row, the stored
    value at `(p, q)` is the pooled feature of node `r`, the block's row `p`. -/
theorem pay1_pool (X : Cert.Sage.Nodes.Idx → EReal) (W : (Cert.Sage.Mat 128 128).Idx → EReal) (B : (Cert.Sage.Mat 1 128).Idx → EReal)
    (x0 : Vec Ideal S5000x128 .f32) (x1 : Vec Ideal S128x128 .f32) (x2 : Vec Ideal S1x128 .f32)
    (r : Fin 50000) (p : Fin 5000) (q : Fin 128)
    (h0 : ∀ k : Fin 128, x0 (ix2 p k) = X (ix2 r k))
    (h1 : ∀ k : Fin 128, x1 (ix2 k q) = W (ix2 k q))
    (h2 : x2 (ix2 (0 : Fin 1) q) = B (ix2 (0 : Fin 1) q)) :
    k2_pay1 (F := Ideal) x0 x1 x2 (ix2 p q) = Cert.Sage.pool X W B (ix2 r q) := by
  refine (pay1_apply x0 x1 x2 p q).trans ?_
  show _ = Cert.Sage.poolAt X W B r q
  unfold Cert.Sage.poolAt Cert.Sage.nrm
  rw [h2]
  refine congrArg₂ max (congrArg₂ (· + ·) (Finset.sum_congr rfl fun k _ => ?_) rfl) rfl
  rw [h0 k, h1 k]
  refine congrArg₂ (· * ·) (congrArg₂ Ideal.div rfl (congrArg₂ max (congrArg Ideal.sqrt (Finset.sum_congr rfl fun j _ => ?_)) rfl)) rfl
  rw [h0 j]

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the grid: the features' and the two outputs' blocks move with the point along the
    rows, the weight's and the bias's stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The features' block at point `t` is rows `5000 t …` of the features. -/
theorem xblk_apply (c : Dev nD) (t : Fin cfg2.N) (p : Fin 5000) (k : Fin 128) (r : Fin 50000) (hr : r.val = t.val * 5000 + p.val) :
    (iblk2 V c 0 t : Vec Ideal S5000x128 .f32) (ix2 p k)
      = (V c (Pipeline.arrRef spec2 0) : Cert.Sage.Nodes.Idx → EReal) (ix2 r k) := by
  obtain ⟨e0, e1, -⟩ := idx_facts t
  have h : ((cfg2.win 0).blk t).view.emb (ix2 p k) = ix2 r k := by
    funext a; apply Fin.ext
    match a with
    | ⟨0, _⟩ => show win2_0.index t (0 : Fin 2) * 5000 + 1 * p.val = r.val; omega
    | ⟨1, _⟩ => show win2_0.index t (1 : Fin 2) * 128 + 1 * k.val = k.val; omega
  show V c (Pipeline.arrRef spec2 0) (((cfg2.win 0).blk t).view.emb (ix2 p k)) = _
  rw [h]

/-- The weight's block at every point is the whole weight. -/
theorem wblk_apply (c : Dev nD) (t : Fin cfg2.N) (k q : Fin 128) :
    (iblk2 V c 1 t : Vec Ideal S128x128 .f32) (ix2 k q)
      = (V c (Pipeline.arrRef spec2 1) : (Cert.Sage.Mat 128 128).Idx → EReal) (ix2 k q) := by
  obtain ⟨-, -, e0, e1, -⟩ := idx_facts t
  have h : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  show V c (Pipeline.arrRef spec2 1) (((cfg2.win 1).blk t).view.emb (ix2 k q)) = _
  rw [h]

/-- The bias's block at every point is the whole bias row. -/
theorem bblk_apply (c : Dev nD) (t : Fin cfg2.N) (u : Fin 1) (q : Fin 128) :
    (iblk2 V c 2 t : Vec Ideal S1x128 .f32) (ix2 u q)
      = (V c (Pipeline.arrRef spec2 2) : (Cert.Sage.Mat 1 128).Idx → EReal) (ix2 u q) := by
  obtain ⟨-, -, -, -, e0, e1, -⟩ := idx_facts t
  have h : ((cfg2.win 2).blk t).view.emb (ix2 u q) = ix2 u q := by
    funext a; apply Fin.ext
    match a with
    | ⟨0, _⟩ => show win2_2.index t (0 : Fin 2) * 1 + 1 * u.val = u.val; omega
    | ⟨1, _⟩ => show win2_2.index t (1 : Fin 2) * 128 + 1 * q.val = q.val; omega
  show V c (Pipeline.arrRef spec2 2) (((cfg2.win 2).blk t).view.emb (ix2 u q)) = _
  rw [h]

/-- The first stored value at point `t`, at `(p, q)` of its block, is the pooled feature of node `5000 t + p`. -/
theorem stored_apply (c : Dev nD) (t : Fin cfg2.N) (p : Fin 5000) (q : Fin 128) (r : Fin 50000) (hr : r.val = t.val * 5000 + p.val) :
    k2_pay1 (F := Ideal) (iblk2 V c 0 t) (iblk2 V c 1 t) (iblk2 V c 2 t) (ix2 p q)
      = Cert.Sage.pool (V c (Pipeline.arrRef spec2 0)) (V c (Pipeline.arrRef spec2 1)) (V c (Pipeline.arrRef spec2 2)) (ix2 r q) :=
  pay1_pool (V c (Pipeline.arrRef spec2 0)) (V c (Pipeline.arrRef spec2 1)) (V c (Pipeline.arrRef spec2 2))
    (iblk2 V c 0 t) (iblk2 V c 1 t) (iblk2 V c 2 t) r p q
    (fun k => xblk_apply V c t p k r hr) (fun k => wblk_apply V c t k q) (bblk_apply V c t (0 : Fin 1) q)

/-- Where an element of an output block sits in its array: row `5000 t + p`, channel `q`. -/
theorem oblk3_emb (t : Fin cfg2.N) (p : Fin 5000) (q : Fin 128) (r : Fin 50000) (hr : r.val = t.val * 5000 + p.val) :
    ((cfg2.win 3).blk t).view.emb (ix2 p q) = ix2 r q := by
  obtain ⟨-, -, -, -, -, -, e0, e1, -⟩ := idx_facts t
  funext a; apply Fin.ext
  match a with
  | ⟨0, _⟩ => show win2_3.index t (0 : Fin 2) * 5000 + 1 * p.val = r.val; omega
  | ⟨1, _⟩ => show win2_3.index t (1 : Fin 2) * 128 + 1 * q.val = q.val; omega

theorem oblk4_emb (t : Fin cfg2.N) (p : Fin 5000) (q : Fin 128) (r : Fin 50000) (hr : r.val = t.val * 5000 + p.val) :
    ((cfg2.win 4).blk t).view.emb (ix2 p q) = ix2 r q := by
  obtain ⟨-, -, -, -, -, -, -, -, e0, e1⟩ := idx_facts t
  funext a; apply Fin.ext
  match a with
  | ⟨0, _⟩ => show win2_4.index t (0 : Fin 2) * 5000 + 1 * p.val = r.val; omega
  | ⟨1, _⟩ => show win2_4.index t (1 : Fin 2) * 128 + 1 * q.val = q.val; omega

/-- A point's row range lies inside the array. -/
theorem row_lt (t : Fin cfg2.N) (p : Fin 5000) : t.val * 5000 + p.val < 50000 := by
  have hN : grid2.N = 10 := N_2
  have ht : t.val < grid2.N := t.isLt
  have hp := p.isLt
  omega

/-! ## What each point writes back -/

/-- Point `t` writes back, to the first output, block `t` of the pooled features of the arrays as the region finds them. -/
theorem flushed3_eq (c : Dev nD) (t : Fin cfg2.N) :
    (dat2 V c).flushed 3 t = ((cfg2.win 3).blk t).view.read (Elt Ideal)
      (Cert.Sage.pool (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k2_pay1 (F := Ideal) (iblk2 V c 0 t) (iblk2 V c 1 t) (iblk2 V c 2 t) (ix2 p q)
    = Cert.Sage.pool (V c (Pipeline.arrRef spec2 0)) (V c (Pipeline.arrRef spec2 1)) (V c (Pipeline.arrRef spec2 2)) (((cfg2.win 3).blk t).view.emb (ix2 p q))
  rw [oblk3_emb t p q ⟨t.val * 5000 + p.val, row_lt t p⟩ rfl]
  exact stored_apply V c t p q ⟨t.val * 5000 + p.val, row_lt t p⟩ rfl

/-- … and to the second output, block `t` of their squares. -/
theorem flushed4_eq (c : Dev nD) (t : Fin cfg2.N) :
    (dat2 V c).flushed 4 t = ((cfg2.win 4).blk t).view.read (Elt Ideal)
      (fun i => Cert.Sage.sqMul (Cert.Sage.pool (V c (Pipeline.arrRef spec2 0)) (V c (Pipeline.arrRef spec2 1)) (V c (Pipeline.arrRef spec2 2)) i)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  show k2_pay1 (F := Ideal) (iblk2 V c 0 t) (iblk2 V c 1 t) (iblk2 V c 2 t) (ix2 p q)
      * k2_pay1 (F := Ideal) (iblk2 V c 0 t) (iblk2 V c 1 t) (iblk2 V c 2 t) (ix2 p q)
    = Cert.Sage.sqMul (Cert.Sage.pool (V c (Pipeline.arrRef spec2 0)) (V c (Pipeline.arrRef spec2 1)) (V c (Pipeline.arrRef spec2 2)) (((cfg2.win 4).blk t).view.emb (ix2 p q)))
  rw [oblk4_emb t p q ⟨t.val * 5000 + p.val, row_lt t p⟩ rfl, stored_apply V c t p q ⟨t.val * 5000 + p.val, row_lt t p⟩ rfl]
  rfl

/-! ## The blocks cover the arrays -/

/-- An index of the array is in point `t`'s block iff each coordinate is in the block's range on its axis. -/
theorem mem_blk3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v23_0).slice (win2_3.rect t)).set ↔ _
  rw [View.set_slice_whole, Rect.mem_set_unit]
  exact Iff.rfl

theorem mem_blk4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v23_1).slice (win2_4.rect t)).set ↔ _
  rw [View.set_slice_whole, Rect.mem_set_unit]
  exact Iff.rfl

/-- The point whose block holds row `r`: `r / 5000`. -/
theorem pointOf_lt (i : S50000x128.Idx) : (i 0).val / 5000 < cfg2.N := by
  have hN : cfg2.N = 10 := N_2
  have hi0 : (i 0).val < 50000 := (i 0).isLt
  rw [hN]; omega

/-- Every index of the first output is in the block of the point that handles its row. -/
theorem cover3 (i : S50000x128.Idx) : ∃ t : Fin cfg2.N, (cfg2.win 3).flush t = true ∧ i ∈ ((cfg2.win 3).blk t).view.set := by
  have hi1 : (i 1).val < 128 := (i 1).isLt
  refine ⟨⟨(i 0).val / 5000, pointOf_lt i⟩, flush2_3 _, ?_⟩
  rw [mem_blk3]
  obtain ⟨-, -, -, -, -, -, e0, e1, -⟩ := idx_facts ⟨(i 0).val / 5000, pointOf_lt i⟩
  have e0' : win2_3.index ⟨(i 0).val / 5000, pointOf_lt i⟩ (0 : Fin 2) = (i 0).val / 5000 := e0
  intro a
  match a with
  | ⟨0, _⟩ =>
    show win2_3.index ⟨(i 0).val / 5000, pointOf_lt i⟩ (0 : Fin 2) * 5000 ≤ (i 0).val ∧ (i 0).val < win2_3.index ⟨(i 0).val / 5000, pointOf_lt i⟩ (0 : Fin 2) * 5000 + 5000
    omega
  | ⟨1, _⟩ =>
    show win2_3.index ⟨(i 0).val / 5000, pointOf_lt i⟩ (1 : Fin 2) * 128 ≤ (i 1).val ∧ (i 1).val < win2_3.index ⟨(i 0).val / 5000, pointOf_lt i⟩ (1 : Fin 2) * 128 + 128
    omega

theorem cover4 (i : S50000x128.Idx) : ∃ t : Fin cfg2.N, (cfg2.win 4).flush t = true ∧ i ∈ ((cfg2.win 4).blk t).view.set := by
  have hi1 : (i 1).val < 128 := (i 1).isLt
  refine ⟨⟨(i 0).val / 5000, pointOf_lt i⟩, flush2_4 _, ?_⟩
  rw [mem_blk4]
  obtain ⟨-, -, -, -, -, -, -, -, e0, e1⟩ := idx_facts ⟨(i 0).val / 5000, pointOf_lt i⟩
  have e0' : win2_4.index ⟨(i 0).val / 5000, pointOf_lt i⟩ (0 : Fin 2) = (i 0).val / 5000 := e0
  intro a
  match a with
  | ⟨0, _⟩ =>
    show win2_4.index ⟨(i 0).val / 5000, pointOf_lt i⟩ (0 : Fin 2) * 5000 ≤ (i 0).val ∧ (i 0).val < win2_4.index ⟨(i 0).val / 5000, pointOf_lt i⟩ (0 : Fin 2) * 5000 + 5000
    omega
  | ⟨1, _⟩ =>
    show win2_4.index ⟨(i 0).val / 5000, pointOf_lt i⟩ (1 : Fin 2) * 128 ≤ (i 1).val ∧ (i 1).val < win2_4.index ⟨(i 0).val / 5000, pointOf_lt i⟩ (1 : Fin 2) * 128 + 128
    omega

/-! ## The two output arrays after the region -/

/-- The first output array ends holding the pooled features of the arrays as the region finds them. -/
theorem final2_3 (c : Dev nD) :
    (dat2 V c).arrAt 3 cfg2.N
      = Cert.Sage.pool (V c (Pipeline.arrRef spec2 0)) (V c (Pipeline.arrRef spec2 1)) (V c (Pipeline.arrRef spec2 2)) :=
  (dat2 V c).arrAt_eq_of_cover 3 _ (fun t _ => flushed3_eq V c t) cover3

/-- The second output array ends holding their squares. -/
theorem final2_4 (c : Dev nD) :
    (dat2 V c).arrAt 4 cfg2.N
      = fun i => Cert.Sage.sqMul (Cert.Sage.pool (V c (Pipeline.arrRef spec2 0)) (V c (Pipeline.arrRef spec2 1)) (V c (Pipeline.arrRef spec2 2)) i) :=
  (dat2 V c).arrAt_eq_of_cover 4 _ (fun t _ => flushed4_eq V c t) cover4

end Cert.KernelIdeal.Pool2

end
-- ==== Proof.Comb1.lean ====
/-
  The combining region of a graph layer (128 output channels, rectified), as a function of whole arrays.

  The body takes a block of 5000 rows of the node features `h` and of the aggregate `a`, both weight matrices and
  both bias rows, and stores `(h · w1T + b1) + (sqrt (max a 0) · w2T + b2)`, clipped below by 0. On the extended reals the roundings to
  half precision on the way into the two products are the identity, so entry `(p, q)` of the stored block is

      max ((∑ₖ h(p,k) · w1T(k,q) + b1(0,q)) + (∑ₖ sqrt (max a(p,k) 0) · w2T(k,q) + b2(0,q))) 0

  (`pay_apply`). Point `t` of the ten-point grid reads rows `5000 t … 5000 t + 4999` of `h` and `a` and the whole of the
  other four arrays, and writes the same rows of the output (`flushed_eq`); the ten blocks tile the 50000 rows
  (`cover`), so the output array ends as the layer's combining function of the six arrays (`final1_6`).
-/
import proofs.«163570_j29978871726568_1_alg».proof.Proof.Gen.KernelIdeal.Frame
import proofs.«163570_j29978871726568_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The operand indices of the product of a `[5000,128]` block with a `[128,128]` matrix: the left operand keeps the output's
    row, the right operand the output's column. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at row `p`, column `q`: the sum over the contracted index `k` of the
    left operand's `(p, k)` entry times the right operand's `(k, q)` entry. -/
theorem mm_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k :=
    funext fun d => Fin.ext (by
      match d with
      | ⟨0, _⟩ => exact lhs_row _ _
      | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q :=
    funext fun d => Fin.ext (by
      match d with
      | ⟨0, _⟩ => exact (dot_S5000x128_S128x128_S5000x128_1_0_0_1_n_n.rhsIdx_val_of_single rfl (ix2 p q) _).trans hk
      | ⟨1, _⟩ => exact rhs_col _ _)
  rw [el, er]

/-- A bias row `[1,128]` spread over the 5000 rows of a block, read at row `p`, column `q`: the row's entry `q`. -/
theorem brow_apply (b : Vec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) (fun a => ?_)
  match a with
  | ⟨0, _⟩ => exact (if_pos rfl).symm
  | ⟨1, _⟩ => show q.val = if (128 : Nat) = 1 then 0 else q.val; rw [if_neg (by decide)]

/-- The body's stored value at row `p`, column `q` of the block, from the six loaded blocks. -/
theorem pay_apply (x0 x1 : Vec Ideal S5000x128 .f32) (w1 w2 : Vec Ideal S128x128 .f32) (b1 b2 : Vec Ideal S1x128 .f32)
    (p : Fin 5000) (q : Fin 128) :
    k1_pay1 x0 x1 w1 w2 b1 b2 (ix2 p q)
      = max (((∑ k : Fin 128, x0 (ix2 p k) * w1 (ix2 k q)) + b1 (ix2 (0 : Fin 1) q))
          + ((∑ k : Fin 128, Ideal.sqrt (max (x1 (ix2 p k)) 0) * w2 (ix2 k q)) + b2 (ix2 (0 : Fin 1) q))) 0 := by
  unfold k1_pay1
  simp only [shapeCast_self]
  refine (congrArg₂ max (congrArg₂ (· + ·) (congrArg₂ (· + ·) (mm_apply _ _ p q) (brow_apply b1 p q))
    (congrArg₂ (· + ·) (mm_apply _ _ p q) (brow_apply b2 p q))) Ideal.ofBits_zero_f32).trans ?_
  have h0 : (FloatOps.ofBits (F := Ideal) .f32 0x00000000#32) = (0 : EReal) := Ideal.ofBits_zero_f32
  show max (((∑ k : Fin 128, x0 (ix2 p k) * w1 (ix2 k q)) + b1 (ix2 (0 : Fin 1) q))
          + ((∑ k : Fin 128, Ideal.sqrt (max (x1 (ix2 p k)) (FloatOps.ofBits (F := Ideal) .f32 0x00000000#32)) * w2 (ix2 k q)) + b2 (ix2 (0 : Fin 1) q))) 0 = _
  rw [h0]

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the ten grid points: the two feature windows and the output move down the rows with
    the point, the weight and bias windows stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Point `t`'s block of the node features is rows `5000 t … 5000 t + 4999` of the array. -/
theorem feat_apply (c : Dev nD) (t : Fin cfg1.N) (p : Fin 5000) (k : Fin 128) (r : Fin 50000)
    (hr : r.val = 5000 * t.val + p.val) :
    (iblk1 V c 0 t : Vec Ideal S5000x128 .f32) (ix2 p k)
      = (V c (Pipeline.arrRef spec1 0) : Cert.Sage.Nodes.Idx → EReal) (ix2 r k) := by
  obtain ⟨e0, e1, -⟩ := idx_facts t
  show (V c (Pipeline.arrRef spec1 0) : Cert.Sage.Nodes.Idx → EReal) (((cfg1.win 0).blk t).view.emb (ix2 p k)) = _
  refine congrArg (V c (Pipeline.arrRef spec1 0) : Cert.Sage.Nodes.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Likewise its block of the aggregate. -/
theorem agg_apply (c : Dev nD) (t : Fin cfg1.N) (p : Fin 5000) (k : Fin 128) (r : Fin 50000)
    (hr : r.val = 5000 * t.val + p.val) :
    (iblk1 V c 1 t : Vec Ideal S5000x128 .f32) (ix2 p k)
      = (V c (Pipeline.arrRef spec1 1) : Cert.Sage.Nodes.Idx → EReal) (ix2 r k) := by
  obtain ⟨-, -, e0, e1, -⟩ := idx_facts t
  show (V c (Pipeline.arrRef spec1 1) : Cert.Sage.Nodes.Idx → EReal) (((cfg1.win 1).blk t).view.emb (ix2 p k)) = _
  refine congrArg (V c (Pipeline.arrRef spec1 1) : Cert.Sage.Nodes.Idx → EReal) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The weight and bias windows hold their whole arrays at every point. -/
theorem w1_apply (c : Dev nD) (t : Fin cfg1.N) (k : Fin 128) (q : Fin 128) :
    (iblk1 V c 2 t : Vec Ideal S128x128 .f32) (ix2 k q)
      = (V c (Pipeline.arrRef spec1 2) : (Cert.Sage.Mat 128 128).Idx → EReal) (ix2 k q) := by
  obtain ⟨-, -, -, -, e0, e1, -⟩ := idx_facts t
  show (V c (Pipeline.arrRef spec1 2) : (Cert.Sage.Mat 128 128).Idx → EReal) (((cfg1.win 2).blk t).view.emb (ix2 k q)) = _
  refine congrArg (V c (Pipeline.arrRef spec1 2) : (Cert.Sage.Mat 128 128).Idx → EReal) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem b1_apply (c : Dev nD) (t : Fin cfg1.N) (q : Fin 128) :
    (iblk1 V c 3 t : Vec Ideal S1x128 .f32) (ix2 (0 : Fin 1) q)
      = (V c (Pipeline.arrRef spec1 3) : (Cert.Sage.Mat 1 128).Idx → EReal) (ix2 (0 : Fin 1) q) := by
  obtain ⟨-, -, -, -, -, -, e0, e1, -⟩ := idx_facts t
  show (V c (Pipeline.arrRef spec1 3) : (Cert.Sage.Mat 1 128).Idx → EReal) (((cfg1.win 3).blk t).view.emb (ix2 (0 : Fin 1) q)) = _
  refine congrArg (V c (Pipeline.arrRef spec1 3) : (Cert.Sage.Mat 1 128).Idx → EReal) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem w2_apply (c : Dev nD) (t : Fin cfg1.N) (k : Fin 128) (q : Fin 128) :
    (iblk1 V c 4 t : Vec Ideal S128x128 .f32) (ix2 k q)
      = (V c (Pipeline.arrRef spec1 4) : (Cert.Sage.Mat 128 128).Idx → EReal) (ix2 k q) := by
  obtain ⟨-, -, -, -, -, -, -, -, e0, e1, -⟩ := idx_facts t
  show (V c (Pipeline.arrRef spec1 4) : (Cert.Sage.Mat 128 128).Idx → EReal) (((cfg1.win 4).blk t).view.emb (ix2 k q)) = _
  refine congrArg (V c (Pipeline.arrRef spec1 4) : (Cert.Sage.Mat 128 128).Idx → EReal) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem b2_apply (c : Dev nD) (t : Fin cfg1.N) (q : Fin 128) :
    (iblk1 V c 5 t : Vec Ideal S1x128 .f32) (ix2 (0 : Fin 1) q)
      = (V c (Pipeline.arrRef spec1 5) : (Cert.Sage.Mat 1 128).Idx → EReal) (ix2 (0 : Fin 1) q) := by
  obtain ⟨-, -, -, -, -, -, -, -, -, -, e0, e1, -⟩ := idx_facts t
  show (V c (Pipeline.arrRef spec1 5) : (Cert.Sage.Mat 1 128).Idx → EReal) (((cfg1.win 5).blk t).view.emb (ix2 (0 : Fin 1) q)) = _
  refine congrArg (V c (Pipeline.arrRef spec1 5) : (Cert.Sage.Mat 1 128).Idx → EReal) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- What point `t` writes back is block `t` of the layer's output as one function of the six arrays. -/
theorem flushed_eq (c : Dev nD) (t : Fin cfg1.N) :
    (dat1 V c).flushed 6 t = ((cfg1.win 6).blk t).view.read (Elt Ideal)
      (Cert.Sage.comb128 Cert.Sage.rtSqrt (V c (Pipeline.arrRef spec1 0)) (V c (Pipeline.arrRef spec1 1))
        (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 10 := lt_of_lt_of_eq t.isLt N_1
  obtain ⟨-, -, -, -, -, -, -, -, -, -, -, -, e0, e1⟩ := idx_facts t
  have hemb : ((cfg1.win 6).blk t).view.emb (ix2 p q)
      = (ix2 (⟨5000 * t.val + p.val, by omega⟩ : Fin 50000) q : Cert.Sage.Nodes.Idx) := by
    funext a; apply Fin.ext
    match a with
    | ⟨0, _⟩ => show win1_6.index t (0 : Fin 2) * 5000 + 1 * p.val = 5000 * t.val + p.val; omega
    | ⟨1, _⟩ => show win1_6.index t (1 : Fin 2) * 128 + 1 * q.val = q.val; omega
  refine (pay_apply _ _ _ _ _ _ p q).trans ?_
  refine Eq.trans ?_ (congrArg (Cert.Sage.comb128 Cert.Sage.rtSqrt (V c (Pipeline.arrRef spec1 0)) (V c (Pipeline.arrRef spec1 1))
        (V c (Pipeline.arrRef spec1 2)) (V c (Pipeline.arrRef spec1 3)) (V c (Pipeline.arrRef spec1 4)) (V c (Pipeline.arrRef spec1 5))) hemb.symm)
  refine congrArg₂ max (congrArg₂ (· + ·)
    (congrArg₂ (· + ·) (Finset.sum_congr rfl fun k _ => congrArg₂ (· * ·) (feat_apply V c t p k _ rfl) (w1_apply V c t k q)) (b1_apply V c t q))
    (congrArg₂ (· + ·) (Finset.sum_congr rfl fun k _ => congrArg₂ (· * ·)
      (congrArg (fun z => Ideal.sqrt (max z 0)) (agg_apply V c t p k _ rfl)) (w2_apply V c t k q)) (b2_apply V c t q))) rfl

/-- An index of the output array is in point `t`'s block iff each coordinate is in the block's range on its axis. -/
theorem mem_blk (t : Fin cfg1.N) (i : Cert.Sage.Nodes.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v20).slice (win1_6.rect t)).set ↔ _
  rw [View.set_slice_whole, Rect.mem_set_unit]
  exact Iff.rfl

/-- Row `r` of the output lies in the block of point `r / 5000`: the ten blocks tile the array. -/
theorem cover (i : Cert.Sage.Nodes.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the region's ten points: the layer's output as one function of the six arrays the region
    finds, index by index. -/
theorem final1_6 (c : Dev nD) :
    (dat1 V c).arrAt 6 cfg1.N
      = Cert.Sage.comb128 Cert.Sage.rtSqrt (V c (Pipeline.arrRef spec1 0)) (V c (Pipeline.arrRef spec1 1))
          (V c (Pipeline.arrRef spec1 2)) (V c (Pipeline.arrRef spec1 3)) (V c (Pipeline.arrRef spec1 4)) (V c (Pipeline.arrRef spec1 5)) :=
  (dat1 V c).arrAt_eq_of_cover 6 _ (fun t _ => flushed_eq V c t) cover

end Cert.KernelIdeal.Comb1

end
-- ==== Proof.Comb3.lean ====
/-
  The combining region of a graph layer (64 output channels, no rectifier), as a function of whole arrays.

  The body takes a block of 5000 rows of the node features `h` and of the aggregate `a`, both weight matrices and
  both bias rows, and stores `(h · w1T + b1) + (sqrt (max a 0) · w2T + b2)`. On the extended reals the roundings to
  half precision on the way into the two products are the identity, so entry `(p, q)` of the stored block is

      (∑ₖ h(p,k) · w1T(k,q) + b1(0,q)) + (∑ₖ sqrt (max a(p,k) 0) · w2T(k,q) + b2(0,q))

  (`pay_apply`). Point `t` of the ten-point grid reads rows `5000 t … 5000 t + 4999` of `h` and `a` and the whole of the
  other four arrays, and writes the same rows of the output (`flushed_eq`); the ten blocks tile the 50000 rows
  (`cover`), so the output array ends as the layer's combining function of the six arrays (`final3_6`).
-/
import proofs.«163570_j29978871726568_1_alg».proof.Proof.Gen.KernelIdeal.Frame
import proofs.«163570_j29978871726568_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Comb3

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The operand indices of the product of a `[5000,128]` block with a `[128,64]` matrix: the left operand keeps the output's
    row, the right operand the output's column. -/
theorem lhs_row (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

theorem rhs_col (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into the zero accumulator at row `p`, column `q`: the sum over the contracted index `k` of the
    left operand's `(p, k)` entry times the right operand's `(k, q)` entry. -/
theorem mm_apply (a : FVec Ideal S5000x128 .bf16) (w : FVec Ideal S128x64 .bf16) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  refine (Ideal.matmul_constant_zero_apply dot_S5000x128_S128x64_S5000x64_1_0_0_1_n_n none a w (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k :=
    funext fun d => Fin.ext (by
      match d with
      | ⟨0, _⟩ => exact lhs_row _ _
      | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q :=
    funext fun d => Fin.ext (by
      match d with
      | ⟨0, _⟩ => exact (dot_S5000x128_S128x64_S5000x64_1_0_0_1_n_n.rhsIdx_val_of_single rfl (ix2 p q) _).trans hk
      | ⟨1, _⟩ => exact rhs_col _ _)
  rw [el, er]

/-- A bias row `[1,64]` spread over the 5000 rows of a block, read at row `p`, column `q`: the row's entry `q`. -/
theorem brow_apply (b : Vec Ideal S1x64 .f32) (p : Fin 5000) (q : Fin 64) :
    broadcastTo S5000x64 b broadcasts_S1x64_S5000x64 (ix2 p q) = b (ix2 (0 : Fin 1) q) := by
  refine broadcastTo_apply b broadcasts_S1x64_S5000x64 (ix2 p q) (ix2 (0 : Fin 1) q) (fun a => ?_)
  match a with
  | ⟨0, _⟩ => exact (if_pos rfl).symm
  | ⟨1, _⟩ => show q.val = if (64 : Nat) = 1 then 0 else q.val; rw [if_neg (by decide)]

/-- The body's stored value at row `p`, column `q` of the block, from the six loaded blocks. -/
theorem pay_apply (x0 x1 : Vec Ideal S5000x128 .f32) (w1 w2 : Vec Ideal S128x64 .f32) (b1 b2 : Vec Ideal S1x64 .f32)
    (p : Fin 5000) (q : Fin 64) :
    k3_pay1 x0 x1 w1 w2 b1 b2 (ix2 p q)
      = ((∑ k : Fin 128, x0 (ix2 p k) * w1 (ix2 k q)) + b1 (ix2 (0 : Fin 1) q))
          + ((∑ k : Fin 128, Ideal.sqrt (max (x1 (ix2 p k)) 0) * w2 (ix2 k q)) + b2 (ix2 (0 : Fin 1) q)) := by
  unfold k3_pay1
  simp only [shapeCast_self]
  refine (congrArg₂ (· + ·) (congrArg₂ (· + ·) (mm_apply _ _ p q) (brow_apply b1 p q))
    (congrArg₂ (· + ·) (mm_apply _ _ p q) (brow_apply b2 p q))).trans ?_
  have h0 : (FloatOps.ofBits (F := Ideal) .f32 0x00000000#32) = (0 : EReal) := Ideal.ofBits_zero_f32
  show ((∑ k : Fin 128, x0 (ix2 p k) * w1 (ix2 k q)) + b1 (ix2 (0 : Fin 1) q))
          + ((∑ k : Fin 128, Ideal.sqrt (max (x1 (ix2 p k)) (FloatOps.ofBits (F := Ideal) .f32 0x00000000#32)) * w2 (ix2 k q)) + b2 (ix2 (0 : Fin 1) q)) = _
  rw [h0]

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the ten grid points: the two feature windows and the output move down the rows with
    the point, the weight and bias windows stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Point `t`'s block of the node features is rows `5000 t … 5000 t + 4999` of the array. -/
theorem feat_apply (c : Dev nD) (t : Fin cfg3.N) (p : Fin 5000) (k : Fin 128) (r : Fin 50000)
    (hr : r.val = 5000 * t.val + p.val) :
    (iblk3 V c 0 t : Vec Ideal S5000x128 .f32) (ix2 p k)
      = (V c (Pipeline.arrRef spec3 0) : Cert.Sage.Nodes.Idx → EReal) (ix2 r k) := by
  obtain ⟨e0, e1, -⟩ := idx_facts t
  show (V c (Pipeline.arrRef spec3 0) : Cert.Sage.Nodes.Idx → EReal) (((cfg3.win 0).blk t).view.emb (ix2 p k)) = _
  refine congrArg (V c (Pipeline.arrRef spec3 0) : Cert.Sage.Nodes.Idx → EReal) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Likewise its block of the aggregate. -/
theorem agg_apply (c : Dev nD) (t : Fin cfg3.N) (p : Fin 5000) (k : Fin 128) (r : Fin 50000)
    (hr : r.val = 5000 * t.val + p.val) :
    (iblk3 V c 1 t : Vec Ideal S5000x128 .f32) (ix2 p k)
      = (V c (Pipeline.arrRef spec3 1) : Cert.Sage.Nodes.Idx → EReal) (ix2 r k) := by
  obtain ⟨-, -, e0, e1, -⟩ := idx_facts t
  show (V c (Pipeline.arrRef spec3 1) : Cert.Sage.Nodes.Idx → EReal) (((cfg3.win 1).blk t).view.emb (ix2 p k)) = _
  refine congrArg (V c (Pipeline.arrRef spec3 1) : Cert.Sage.Nodes.Idx → EReal) (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

/-- The weight and bias windows hold their whole arrays at every point. -/
theorem w1_apply (c : Dev nD) (t : Fin cfg3.N) (k : Fin 128) (q : Fin 64) :
    (iblk3 V c 2 t : Vec Ideal S128x64 .f32) (ix2 k q)
      = (V c (Pipeline.arrRef spec3 2) : (Cert.Sage.Mat 128 64).Idx → EReal) (ix2 k q) := by
  obtain ⟨-, -, -, -, e0, e1, -⟩ := idx_facts t
  show (V c (Pipeline.arrRef spec3 2) : (Cert.Sage.Mat 128 64).Idx → EReal) (((cfg3.win 2).blk t).view.emb (ix2 k q)) = _
  refine congrArg (V c (Pipeline.arrRef spec3 2) : (Cert.Sage.Mat 128 64).Idx → EReal) (funext fun a => Fin.ext ?_)
  match a with
  | ⟨0, _⟩ => show win3_2.index t (0 : Fin 2) * 128 + 1 * k.val = k.val; omega
  | ⟨1, _⟩ => show win3_2.index t (1 : Fin 2) * 64 + 1 * q.val = q.val; omega

theorem b1_apply (c : Dev nD) (t : Fin cfg3.N) (q : Fin 64) :
    (iblk3 V c 3 t : Vec Ideal S1x64 .f32) (ix2 (0 : Fin 1) q)
      = (V c (Pipeline.arrRef spec3 3) : (Cert.Sage.Mat 1 64).Idx → EReal) (ix2 (0 : Fin 1) q) := by
  obtain ⟨-, -, -, -, -, -, e0, e1, -⟩ := idx_facts t
  show (V c (Pipeline.arrRef spec3 3) : (Cert.Sage.Mat 1 64).Idx → EReal) (((cfg3.win 3).blk t).view.emb (ix2 (0 : Fin 1) q)) = _
  refine congrArg (V c (Pipeline.arrRef spec3 3) : (Cert.Sage.Mat 1 64).Idx → EReal) (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

theorem w2_apply (c : Dev nD) (t : Fin cfg3.N) (k : Fin 128) (q : Fin 64) :
    (iblk3 V c 4 t : Vec Ideal S128x64 .f32) (ix2 k q)
      = (V c (Pipeline.arrRef spec3 4) : (Cert.Sage.Mat 128 64).Idx → EReal) (ix2 k q) := by
  obtain ⟨-, -, -, -, -, -, -, -, e0, e1, -⟩ := idx_facts t
  show (V c (Pipeline.arrRef spec3 4) : (Cert.Sage.Mat 128 64).Idx → EReal) (((cfg3.win 4).blk t).view.emb (ix2 k q)) = _
  refine congrArg (V c (Pipeline.arrRef spec3 4) : (Cert.Sage.Mat 128 64).Idx → EReal) (funext fun a => Fin.ext ?_)
  match a with
  | ⟨0, _⟩ => show win3_4.index t (0 : Fin 2) * 128 + 1 * k.val = k.val; omega
  | ⟨1, _⟩ => show win3_4.index t (1 : Fin 2) * 64 + 1 * q.val = q.val; omega

theorem b2_apply (c : Dev nD) (t : Fin cfg3.N) (q : Fin 64) :
    (iblk3 V c 5 t : Vec Ideal S1x64 .f32) (ix2 (0 : Fin 1) q)
      = (V c (Pipeline.arrRef spec3 5) : (Cert.Sage.Mat 1 64).Idx → EReal) (ix2 (0 : Fin 1) q) := by
  obtain ⟨-, -, -, -, -, -, -, -, -, -, e0, e1, -⟩ := idx_facts t
  show (V c (Pipeline.arrRef spec3 5) : (Cert.Sage.Mat 1 64).Idx → EReal) (((cfg3.win 5).blk t).view.emb (ix2 (0 : Fin 1) q)) = _
  refine congrArg (V c (Pipeline.arrRef spec3 5) : (Cert.Sage.Mat 1 64).Idx → EReal) (funext fun a => Fin.ext ?_)
  match a with
  | ⟨0, _⟩ => show win3_5.index t (0 : Fin 2) * 1 + 1 * 0 = 0; omega
  | ⟨1, _⟩ => show win3_5.index t (1 : Fin 2) * 64 + 1 * q.val = q.val; omega

/-- What point `t` writes back is block `t` of the layer's output as one function of the six arrays. -/
theorem flushed_eq (c : Dev nD) (t : Fin cfg3.N) :
    (dat3 V c).flushed 6 t = ((cfg3.win 6).blk t).view.read (Elt Ideal)
      (Cert.Sage.comb64 Cert.Sage.rtSqrt (V c (Pipeline.arrRef spec3 0)) (V c (Pipeline.arrRef spec3 1))
        (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  have ht : t.val < 10 := lt_of_lt_of_eq t.isLt N_3
  obtain ⟨-, -, -, -, -, -, -, -, -, -, -, -, e0, e1⟩ := idx_facts t
  have hemb : ((cfg3.win 6).blk t).view.emb (ix2 p q)
      = (ix2 (⟨5000 * t.val + p.val, by omega⟩ : Fin 50000) q : Cert.Sage.Out64.Idx) := by
    funext a; apply Fin.ext
    match a with
    | ⟨0, _⟩ => show win3_6.index t (0 : Fin 2) * 5000 + 1 * p.val = 5000 * t.val + p.val; omega
    | ⟨1, _⟩ => show win3_6.index t (1 : Fin 2) * 64 + 1 * q.val = q.val; omega
  refine (pay_apply _ _ _ _ _ _ p q).trans ?_
  refine Eq.trans ?_ (congrArg (Cert.Sage.comb64 Cert.Sage.rtSqrt (V c (Pipeline.arrRef spec3 0)) (V c (Pipeline.arrRef spec3 1))
        (V c (Pipeline.arrRef spec3 2)) (V c (Pipeline.arrRef spec3 3)) (V c (Pipeline.arrRef spec3 4)) (V c (Pipeline.arrRef spec3 5))) hemb.symm)
  refine (congrArg₂ (· + ·)
    (congrArg₂ (· + ·) (Finset.sum_congr rfl fun k _ => congrArg₂ (· * ·) (feat_apply V c t p k _ rfl) (w1_apply V c t k q)) (b1_apply V c t q))
    (congrArg₂ (· + ·) (Finset.sum_congr rfl fun k _ => congrArg₂ (· * ·)
      (congrArg (fun z => Ideal.sqrt (max z 0)) (agg_apply V c t p k _ rfl)) (w2_apply V c t k q)) (b2_apply V c t q)))

/-- An index of the output array is in point `t`'s block iff each coordinate is in the block's range on its axis. -/
theorem mem_blk (t : Fin cfg3.N) (i : Cert.Sage.Out64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v41).slice (win3_6.rect t)).set ↔ _
  rw [View.set_slice_whole, Rect.mem_set_unit]
  exact Iff.rfl

/-- Row `r` of the output lies in the block of point `r / 5000`: the ten blocks tile the array. -/
theorem cover (i : Cert.Sage.Out64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 10) N_3.symm⟩, rfl⟩
  obtain ⟨-, -, -, -, -, -, -, -, -, -, -, -, e0, e1⟩ := idx_facts t
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The output array after the region's ten points: the layer's output as one function of the six arrays the region
    finds, index by index. -/
theorem final3_6 (c : Dev nD) :
    (dat3 V c).arrAt 6 cfg3.N
      = Cert.Sage.comb64 Cert.Sage.rtSqrt (V c (Pipeline.arrRef spec3 0)) (V c (Pipeline.arrRef spec3 1))
          (V c (Pipeline.arrRef spec3 2)) (V c (Pipeline.arrRef spec3 3)) (V c (Pipeline.arrRef spec3 4)) (V c (Pipeline.arrRef spec3 5)) :=
  (dat3 V c).arrAt_eq_of_cover 6 _ (fun t _ => flushed_eq V c t) cover

end Cert.KernelIdeal.Comb3

end
-- ==== Proof.ChainHead.lean ====
/-
  The kernel program's buffers at its first two segment boundaries, as functions of the launch arrays
  (the first half of reading the result buffer off the run; the later boundaries follow in KernelChain.lean).

  The program is: a stretch of host operations (transpose the pooling weight, reshape its bias to a row), the pooling
  region, a stretch that aggregates the squared features along the edges and prepares the two projections, the
  combining region — and the same four segments once more for the second layer. The buffer contents at the eight
  segment boundaries are the generated fold `W0 … W8`. Read back one boundary at a time:

    * across a host stretch a buffer the stretch writes holds its operation's value of the operands' contents, and every
      other buffer what it held;
    * across a region an output window's array holds what the pipeline's write-backs leave — the whole-array function
      of the region's input arrays that the region's value lemma states — and every other buffer what it held.

  The transposes and the reshapes read at an index are the specification's `tr` and `row`; the edge aggregation is kept
  as ONE function `aggK` of the array it is given. The result is the two-layer network of the specification in its
  product-and-square-root spelling.
-/
import proofs.«163570_j29978871726568_1_alg».proof.Proof.Gen.KernelIdeal.Frame
import proofs.«163570_j29978871726568_1_alg».proof.Proof.Spec
import proofs.«163570_j29978871726568_1_alg».proof.Proof.Pool0
import proofs.«163570_j29978871726568_1_alg».proof.Proof.Pool2
import proofs.«163570_j29978871726568_1_alg».proof.Proof.Comb1
import proofs.«163570_j29978871726568_1_alg».proof.Proof.Comb3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.Sage

/-! ## The host operations read at an index -/

/-- A matrix transposed is the specification's `tr`. -/
theorem transpose_eq_tr {a b : Nat} (x : (Mat a b).Idx → EReal) (h : (Mat a b).Transposes [1, 0] (Mat b a)) :
    transpose (Mat b a) [1, 0] x h = tr x := by
  funext i
  obtain ⟨p, q, rfl⟩ : ∃ (p : Fin b) (q : Fin a), i = ix2 p q := ⟨i 0, i 1, eq_ix2 i⟩
  exact transpose_ix2_apply x h p q

/-- A vector reshaped to a row is the specification's `row`. -/
theorem reshape_eq_row {n : Nat} (x : (⟨1, ![n]⟩ : Shape).Idx → EReal) (h : (⟨1, ![n]⟩ : Shape).ShapeCasts (Mat 1 n)) :
    shapeCast (Mat 1 n) x h = row x := by
  funext i
  obtain ⟨u, q, rfl⟩ : ∃ (u : Fin 1) (q : Fin n), i = ix2 u q := ⟨i 0, i 1, eq_ix2 i⟩
  exact shapeCast_a_1a_apply x h u q

/-- The edge aggregation of a node array `hm`: gather its rows by source node (a negative index wrapped by the number
    of nodes), scale each by its edge's value, and add the rows up by target node, from zero. -/
def aggK (src dst : IVec S800000 32) (val : FVec Ideal S800000 .f32) (hm : FVec Ideal S50000x128 .f32) : FVec Ideal S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 dst)
    (mulf
      (Host.gather gather_S50000x128_S800000x1_S800000x128_1_0_n_n_0_1_1128 hm
        (broadcastInDim S800000x1 ![0] Facts₀.bcast_S800000_S800000x1_0
          (select (cmpi .slt src (broadcastInDim S800000 ![] Facts₀.bcast_S_S800000 (constantI S_ 32 0#32)))
            (addi src (broadcastInDim S800000 ![] Facts₀.bcast_S_S800000 (constantI S_ 32 50000#32))) src)))
      (broadcastInDim S800000x128 ![0, 1] Facts₀.bcast_S800000x1_S800000x128_0_1
        (broadcastInDim S800000x1 ![0] Facts₀.bcast_S800000_S800000x1_0 val)))

variable (m : (ℓ : Loc nD τ sig) → Buf (Elt Ideal) ℓ) (ρ : Dev nD → PrngReg) (c : Dev nD)

/-- Argument `b`'s array at launch. -/
abbrev arg (b : Ref sig .tc) : Buf (Elt Ideal) ((c : Thread nD τ).loc b) := m ((c : Thread nD τ).loc b)

/-! ## Boundary 1: after the first host stretch -/

theorem W1_v0 : W1 m ρ c (Proc.devRef .tc main_v0) = tr (arg m c main_arg4) := by
  dsimp only [W1, hostOps0]; after_results
  exact transpose_eq_tr _ _
theorem W1_v1 : W1 m ρ c (Proc.devRef .tc main_v1) = row (arg m c main_arg5) := by
  dsimp only [W1, hostOps0]; after_results
  exact reshape_eq_row _ _
theorem W1_arg0 : W1 m ρ c (Proc.devRef .tc main_arg0) = arg m c main_arg0 := by
  dsimp only [W1, hostOps0]; after_results
theorem W1_arg1 : W1 m ρ c (Proc.devRef .tc main_arg1) = arg m c main_arg1 := by
  dsimp only [W1, hostOps0]; after_results
theorem W1_arg2 : W1 m ρ c (Proc.devRef .tc main_arg2) = arg m c main_arg2 := by
  dsimp only [W1, hostOps0]; after_results
theorem W1_arg3 : W1 m ρ c (Proc.devRef .tc main_arg3) = arg m c main_arg3 := by
  dsimp only [W1, hostOps0]; after_results
theorem W1_arg6 : W1 m ρ c (Proc.devRef .tc main_arg6) = arg m c main_arg6 := by
  dsimp only [W1, hostOps0]; after_results
theorem W1_arg7 : W1 m ρ c (Proc.devRef .tc main_arg7) = arg m c main_arg7 := by
  dsimp only [W1, hostOps0]; after_results
theorem W1_arg8 : W1 m ρ c (Proc.devRef .tc main_arg8) = arg m c main_arg8 := by
  dsimp only [W1, hostOps0]; after_results
theorem W1_arg9 : W1 m ρ c (Proc.devRef .tc main_arg9) = arg m c main_arg9 := by
  dsimp only [W1, hostOps0]; after_results
theorem W1_arg10 : W1 m ρ c (Proc.devRef .tc main_arg10) = arg m c main_arg10 := by
  dsimp only [W1, hostOps0]; after_results
theorem W1_arg11 : W1 m ρ c (Proc.devRef .tc main_arg11) = arg m c main_arg11 := by
  dsimp only [W1, hostOps0]; after_results
theorem W1_arg12 : W1 m ρ c (Proc.devRef .tc main_arg12) = arg m c main_arg12 := by
  dsimp only [W1, hostOps0]; after_results
theorem W1_arg13 : W1 m ρ c (Proc.devRef .tc main_arg13) = arg m c main_arg13 := by
  dsimp only [W1, hostOps0]; after_results
theorem W1_arg14 : W1 m ρ c (Proc.devRef .tc main_arg14) = arg m c main_arg14 := by
  dsimp only [W1, hostOps0]; after_results
theorem W1_arg15 : W1 m ρ c (Proc.devRef .tc main_arg15) = arg m c main_arg15 := by
  dsimp only [W1, hostOps0]; after_results

/-! ## The regions' values, at the buffers each window stages

Each output window's array after its region is the specification's function of the region's input arrays, whatever the
contents `V` the region is entered with; the windows' arrays are named by their buffers here (window `w` of a region
stages the `w`-th operand of its call). -/

section RegionValues
variable (V : (c : Dev nD) → (b : Ref sig .tc) → Buf (Elt Ideal) ((c : Thread nD τ).loc b)) (c : Dev nD)

theorem pool0_h : (dat0 V c).arrAt 3 cfg0.N = pool (V c main_arg0) (V c main_v0) (V c main_v1) :=
  Cert.KernelIdeal.Pool0.final0_3 V c
theorem pool0_q : (dat0 V c).arrAt 4 cfg0.N = fun i => sqMul (pool (V c main_arg0) (V c main_v0) (V c main_v1) i) :=
  Cert.KernelIdeal.Pool0.final0_4 V c
theorem comb1_o : (dat1 V c).arrAt 6 cfg1.N
    = comb128 rtSqrt (V c main_v2_0) (V c main_v15) (V c main_v16) (V c main_v18) (V c main_v17) (V c main_v19) :=
  Cert.KernelIdeal.Comb1.final1_6 V c
theorem pool2_h : (dat2 V c).arrAt 3 cfg2.N = pool (V c main_v20) (V c main_v21) (V c main_v22) :=
  Cert.KernelIdeal.Pool2.final2_3 V c
theorem pool2_q : (dat2 V c).arrAt 4 cfg2.N = fun i => sqMul (pool (V c main_v20) (V c main_v21) (V c main_v22) i) :=
  Cert.KernelIdeal.Pool2.final2_4 V c
theorem comb3_o : (dat3 V c).arrAt 6 cfg3.N
    = comb64 rtSqrt (V c main_v23_0) (V c main_v36) (V c main_v37) (V c main_v39) (V c main_v38) (V c main_v40) :=
  Cert.KernelIdeal.Comb3.final3_6 V c

end RegionValues

/-- The first layer's pooled features, its aggregate and its output, and the second layer's, as functions of the launch arrays. -/
abbrev H0 : Nodes.Idx → EReal := pool (arg m c main_arg0) (tr (arg m c main_arg4)) (row (arg m c main_arg5))
abbrev agg : (Nodes.Idx → EReal) → Nodes.Idx → EReal := aggK (arg m c main_arg1) (arg m c main_arg2) (arg m c main_arg3)
abbrev X1 : Nodes.Idx → EReal :=
  layer128 sqMul rtSqrt (agg m c) (arg m c main_arg0) (tr (arg m c main_arg4)) (row (arg m c main_arg5))
    (tr (arg m c main_arg6)) (row (arg m c main_arg7)) (tr (arg m c main_arg8)) (row (arg m c main_arg9))
abbrev H1 : Nodes.Idx → EReal := pool (X1 m c) (tr (arg m c main_arg10)) (row (arg m c main_arg11))

/-! ## Boundary 2: after the first pooling region -/

theorem W2_v2_0 : W2 m ρ c (Proc.devRef .tc main_v2_0) = H0 m c := by
  refine (W2_arr m ρ c 3).trans ((pool0_h (V1 m ρ) c).trans ?_)
  dsimp only [V1]
  rw [W1_arg0, W1_v0, W1_v1]
theorem W2_v2_1 : W2 m ρ c (Proc.devRef .tc main_v2_1) = fun i => sqMul (H0 m c i) := by
  refine (W2_arr m ρ c 4).trans ((pool0_q (V1 m ρ) c).trans ?_)
  dsimp only [V1]
  rw [W1_arg0, W1_v0, W1_v1]
theorem W2_arg1 : W2 m ρ c (Proc.devRef .tc main_arg1) = arg m c main_arg1 :=
  (W2_of_ne m ρ c main_arg1 (by decide)).trans (W1_arg1 m ρ c)
theorem W2_arg2 : W2 m ρ c (Proc.devRef .tc main_arg2) = arg m c main_arg2 :=
  (W2_of_ne m ρ c main_arg2 (by decide)).trans (W1_arg2 m ρ c)
theorem W2_arg3 : W2 m ρ c (Proc.devRef .tc main_arg3) = arg m c main_arg3 :=
  (W2_of_ne m ρ c main_arg3 (by decide)).trans (W1_arg3 m ρ c)
theorem W2_arg6 : W2 m ρ c (Proc.devRef .tc main_arg6) = arg m c main_arg6 :=
  (W2_of_ne m ρ c main_arg6 (by decide)).trans (W1_arg6 m ρ c)
theorem W2_arg7 : W2 m ρ c (Proc.devRef .tc main_arg7) = arg m c main_arg7 :=
  (W2_of_ne m ρ c main_arg7 (by decide)).trans (W1_arg7 m ρ c)
theorem W2_arg8 : W2 m ρ c (Proc.devRef .tc main_arg8) = arg m c main_arg8 :=
  (W2_of_ne m ρ c main_arg8 (by decide)).trans (W1_arg8 m ρ c)
theorem W2_arg9 : W2 m ρ c (Proc.devRef .tc main_arg9) = arg m c main_arg9 :=
  (W2_of_ne m ρ c main_arg9 (by decide)).trans (W1_arg9 m ρ c)
theorem W2_arg10 : W2 m ρ c (Proc.devRef .tc main_arg10) = arg m c main_arg10 :=
  (W2_of_ne m ρ c main_arg10 (by decide)).trans (W1_arg10 m ρ c)
theorem W2_arg11 : W2 m ρ c (Proc.devRef .tc main_arg11) = arg m c main_arg11 :=
  (W2_of_ne m ρ c main_arg11 (by decide)).trans (W1_arg11 m ρ c)
theorem W2_arg12 : W2 m ρ c (Proc.devRef .tc main_arg12) = arg m c main_arg12 :=
  (W2_of_ne m ρ c main_arg12 (by decide)).trans (W1_arg12 m ρ c)
theorem W2_arg13 : W2 m ρ c (Proc.devRef .tc main_arg13) = arg m c main_arg13 :=
  (W2_of_ne m ρ c main_arg13 (by decide)).trans (W1_arg13 m ρ c)
theorem W2_arg14 : W2 m ρ c (Proc.devRef .tc main_arg14) = arg m c main_arg14 :=
  (W2_of_ne m ρ c main_arg14 (by decide)).trans (W1_arg14 m ρ c)
theorem W2_arg15 : W2 m ρ c (Proc.devRef .tc main_arg15) = arg m c main_arg15 :=
  (W2_of_ne m ρ c main_arg15 (by decide)).trans (W1_arg15 m ρ c)

end Cert.KernelIdeal.Chain

end
-- ==== Proof.KernelChain.lean ====
/-
  What the kernel program's result buffer holds, as a function of the launch arrays: the segment boundaries after the
  first pooling region, read back one at a time as in ChainHead.lean (a host stretch: each written buffer at its
  operation's value of the operands' contents, every other buffer kept; a region: each output window's array at the
  region's value lemma, every other buffer kept), down to the result buffer at the last boundary — the specification's
  two-layer network in its product-and-square-root spelling.
-/
import proofs.«163570_j29978871726568_1_alg».proof.Proof.ChainHead

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Cert.Sage

variable (m : (ℓ : Loc nD τ sig) → Buf (Elt Ideal) ℓ) (ρ : Dev nD → PrngReg) (c : Dev nD)

/-! ## Boundary 3: after the first aggregation stretch -/

theorem W3_v2_0 : W3 m ρ c (Proc.devRef .tc main_v2_0) = H0 m c := by
  dsimp only [W3, hostOps1]; after_results; exact W2_v2_0 m ρ c
theorem W3_v15 : W3 m ρ c (Proc.devRef .tc main_v15) = agg m c (fun i => sqMul (H0 m c i)) := by
  dsimp only [W3, hostOps1]; after_results_simp
  rw [W2_arg1, W2_arg2, W2_arg3, W2_v2_1 m ρ c]
  rfl
theorem W3_v16 : W3 m ρ c (Proc.devRef .tc main_v16) = tr (arg m c main_arg6) := by
  dsimp only [W3, hostOps1]; after_results; rw [W2_arg6]; exact transpose_eq_tr _ _
theorem W3_v17 : W3 m ρ c (Proc.devRef .tc main_v17) = tr (arg m c main_arg8) := by
  dsimp only [W3, hostOps1]; after_results; rw [W2_arg8]; exact transpose_eq_tr _ _
theorem W3_v18 : W3 m ρ c (Proc.devRef .tc main_v18) = row (arg m c main_arg7) := by
  dsimp only [W3, hostOps1]; after_results; rw [W2_arg7]; exact reshape_eq_row _ _
theorem W3_v19 : W3 m ρ c (Proc.devRef .tc main_v19) = row (arg m c main_arg9) := by
  dsimp only [W3, hostOps1]; after_results; rw [W2_arg9]; exact reshape_eq_row _ _
theorem W3_arg1 : W3 m ρ c (Proc.devRef .tc main_arg1) = arg m c main_arg1 := by
  dsimp only [W3, hostOps1]; after_results; exact W2_arg1 m ρ c
theorem W3_arg2 : W3 m ρ c (Proc.devRef .tc main_arg2) = arg m c main_arg2 := by
  dsimp only [W3, hostOps1]; after_results; exact W2_arg2 m ρ c
theorem W3_arg3 : W3 m ρ c (Proc.devRef .tc main_arg3) = arg m c main_arg3 := by
  dsimp only [W3, hostOps1]; after_results; exact W2_arg3 m ρ c
theorem W3_arg10 : W3 m ρ c (Proc.devRef .tc main_arg10) = arg m c main_arg10 := by
  dsimp only [W3, hostOps1]; after_results; exact W2_arg10 m ρ c
theorem W3_arg11 : W3 m ρ c (Proc.devRef .tc main_arg11) = arg m c main_arg11 := by
  dsimp only [W3, hostOps1]; after_results; exact W2_arg11 m ρ c
theorem W3_arg12 : W3 m ρ c (Proc.devRef .tc main_arg12) = arg m c main_arg12 := by
  dsimp only [W3, hostOps1]; after_results; exact W2_arg12 m ρ c
theorem W3_arg13 : W3 m ρ c (Proc.devRef .tc main_arg13) = arg m c main_arg13 := by
  dsimp only [W3, hostOps1]; after_results; exact W2_arg13 m ρ c
theorem W3_arg14 : W3 m ρ c (Proc.devRef .tc main_arg14) = arg m c main_arg14 := by
  dsimp only [W3, hostOps1]; after_results; exact W2_arg14 m ρ c
theorem W3_arg15 : W3 m ρ c (Proc.devRef .tc main_arg15) = arg m c main_arg15 := by
  dsimp only [W3, hostOps1]; after_results; exact W2_arg15 m ρ c

/-! ## Boundary 4: after the first combining region — the first layer's output -/

theorem W4_v20 : W4 m ρ c (Proc.devRef .tc main_v20) = X1 m c := by
  refine (W4_arr m ρ c 6).trans ((comb1_o (V3 m ρ) c).trans ?_)
  dsimp only [V3]
  rw [W3_v2_0 m ρ c, W3_v15 m ρ c, W3_v16, W3_v17, W3_v18, W3_v19]
  rfl
theorem W4_arg1 : W4 m ρ c (Proc.devRef .tc main_arg1) = arg m c main_arg1 :=
  (W4_of_ne m ρ c main_arg1 (by decide)).trans (W3_arg1 m ρ c)
theorem W4_arg2 : W4 m ρ c (Proc.devRef .tc main_arg2) = arg m c main_arg2 :=
  (W4_of_ne m ρ c main_arg2 (by decide)).trans (W3_arg2 m ρ c)
theorem W4_arg3 : W4 m ρ c (Proc.devRef .tc main_arg3) = arg m c main_arg3 :=
  (W4_of_ne m ρ c main_arg3 (by decide)).trans (W3_arg3 m ρ c)
theorem W4_arg10 : W4 m ρ c (Proc.devRef .tc main_arg10) = arg m c main_arg10 :=
  (W4_of_ne m ρ c main_arg10 (by decide)).trans (W3_arg10 m ρ c)
theorem W4_arg11 : W4 m ρ c (Proc.devRef .tc main_arg11) = arg m c main_arg11 :=
  (W4_of_ne m ρ c main_arg11 (by decide)).trans (W3_arg11 m ρ c)
theorem W4_arg12 : W4 m ρ c (Proc.devRef .tc main_arg12) = arg m c main_arg12 :=
  (W4_of_ne m ρ c main_arg12 (by decide)).trans (W3_arg12 m ρ c)
theorem W4_arg13 : W4 m ρ c (Proc.devRef .tc main_arg13) = arg m c main_arg13 :=
  (W4_of_ne m ρ c main_arg13 (by decide)).trans (W3_arg13 m ρ c)
theorem W4_arg14 : W4 m ρ c (Proc.devRef .tc main_arg14) = arg m c main_arg14 :=
  (W4_of_ne m ρ c main_arg14 (by decide)).trans (W3_arg14 m ρ c)
theorem W4_arg15 : W4 m ρ c (Proc.devRef .tc main_arg15) = arg m c main_arg15 :=
  (W4_of_ne m ρ c main_arg15 (by decide)).trans (W3_arg15 m ρ c)

/-! ## Boundary 5: after the second layer's first host stretch -/

theorem W5_v20 : W5 m ρ c (Proc.devRef .tc main_v20) = X1 m c := by
  dsimp only [W5, hostOps2]; after_results; exact W4_v20 m ρ c
theorem W5_v21 : W5 m ρ c (Proc.devRef .tc main_v21) = tr (arg m c main_arg10) := by
  dsimp only [W5, hostOps2]; after_results; rw [W4_arg10]; exact transpose_eq_tr _ _
theorem W5_v22 : W5 m ρ c (Proc.devRef .tc main_v22) = row (arg m c main_arg11) := by
  dsimp only [W5, hostOps2]; after_results; rw [W4_arg11]; exact reshape_eq_row _ _
theorem W5_arg1 : W5 m ρ c (Proc.devRef .tc main_arg1) = arg m c main_arg1 := by
  dsimp only [W5, hostOps2]; after_results; exact W4_arg1 m ρ c
theorem W5_arg2 : W5 m ρ c (Proc.devRef .tc main_arg2) = arg m c main_arg2 := by
  dsimp only [W5, hostOps2]; after_results; exact W4_arg2 m ρ c
theorem W5_arg3 : W5 m ρ c (Proc.devRef .tc main_arg3) = arg m c main_arg3 := by
  dsimp only [W5, hostOps2]; after_results; exact W4_arg3 m ρ c
theorem W5_arg12 : W5 m ρ c (Proc.devRef .tc main_arg12) = arg m c main_arg12 := by
  dsimp only [W5, hostOps2]; after_results; exact W4_arg12 m ρ c
theorem W5_arg13 : W5 m ρ c (Proc.devRef .tc main_arg13) = arg m c main_arg13 := by
  dsimp only [W5, hostOps2]; after_results; exact W4_arg13 m ρ c
theorem W5_arg14 : W5 m ρ c (Proc.devRef .tc main_arg14) = arg m c main_arg14 := by
  dsimp only [W5, hostOps2]; after_results; exact W4_arg14 m ρ c
theorem W5_arg15 : W5 m ρ c (Proc.devRef .tc main_arg15) = arg m c main_arg15 := by
  dsimp only [W5, hostOps2]; after_results; exact W4_arg15 m ρ c

/-! ## Boundary 6: after the second pooling region -/

theorem W6_v23_0 : W6 m ρ c (Proc.devRef .tc main_v23_0) = H1 m c := by
  refine (W6_arr m ρ c 3).trans ((pool2_h (V5 m ρ) c).trans ?_)
  dsimp only [V5]
  rw [W5_v20 m ρ c, W5_v21, W5_v22]
theorem W6_v23_1 : W6 m ρ c (Proc.devRef .tc main_v23_1) = fun i => sqMul (H1 m c i) := by
  refine (W6_arr m ρ c 4).trans ((pool2_q (V5 m ρ) c).trans ?_)
  dsimp only [V5]
  rw [W5_v20 m ρ c, W5_v21, W5_v22]
theorem W6_arg1 : W6 m ρ c (Proc.devRef .tc main_arg1) = arg m c main_arg1 :=
  (W6_of_ne m ρ c main_arg1 (by decide)).trans (W5_arg1 m ρ c)
theorem W6_arg2 : W6 m ρ c (Proc.devRef .tc main_arg2) = arg m c main_arg2 :=
  (W6_of_ne m ρ c main_arg2 (by decide)).trans (W5_arg2 m ρ c)
theorem W6_arg3 : W6 m ρ c (Proc.devRef .tc main_arg3) = arg m c main_arg3 :=
  (W6_of_ne m ρ c main_arg3 (by decide)).trans (W5_arg3 m ρ c)
theorem W6_arg12 : W6 m ρ c (Proc.devRef .tc main_arg12) = arg m c main_arg12 :=
  (W6_of_ne m ρ c main_arg12 (by decide)).trans (W5_arg12 m ρ c)
theorem W6_arg13 : W6 m ρ c (Proc.devRef .tc main_arg13) = arg m c main_arg13 :=
  (W6_of_ne m ρ c main_arg13 (by decide)).trans (W5_arg13 m ρ c)
theorem W6_arg14 : W6 m ρ c (Proc.devRef .tc main_arg14) = arg m c main_arg14 :=
  (W6_of_ne m ρ c main_arg14 (by decide)).trans (W5_arg14 m ρ c)
theorem W6_arg15 : W6 m ρ c (Proc.devRef .tc main_arg15) = arg m c main_arg15 :=
  (W6_of_ne m ρ c main_arg15 (by decide)).trans (W5_arg15 m ρ c)

/-! ## Boundary 7: after the second aggregation stretch -/

theorem W7_v23_0 : W7 m ρ c (Proc.devRef .tc main_v23_0) = H1 m c := by
  dsimp only [W7, hostOps3]; after_results; exact W6_v23_0 m ρ c
theorem W7_v36 : W7 m ρ c (Proc.devRef .tc main_v36) = agg m c (fun i => sqMul (H1 m c i)) := by
  dsimp only [W7, hostOps3]; after_results_simp
  rw [W6_arg1, W6_arg2, W6_arg3, W6_v23_1 m ρ c]
  rfl
theorem W7_v37 : W7 m ρ c (Proc.devRef .tc main_v37) = tr (arg m c main_arg12) := by
  dsimp only [W7, hostOps3]; after_results; rw [W6_arg12]; exact transpose_eq_tr _ _
theorem W7_v38 : W7 m ρ c (Proc.devRef .tc main_v38) = tr (arg m c main_arg14) := by
  dsimp only [W7, hostOps3]; after_results; rw [W6_arg14]; exact transpose_eq_tr _ _
theorem W7_v39 : W7 m ρ c (Proc.devRef .tc main_v39) = row (arg m c main_arg13) := by
  dsimp only [W7, hostOps3]; after_results; rw [W6_arg13]; exact reshape_eq_row _ _
theorem W7_v40 : W7 m ρ c (Proc.devRef .tc main_v40) = row (arg m c main_arg15) := by
  dsimp only [W7, hostOps3]; after_results; rw [W6_arg15]; exact reshape_eq_row _ _

/-! ## Boundary 8: the result -/

/-- The result buffer at the last boundary is the two-layer network of the launch arrays. -/
theorem W8_v41 : W8 m ρ c (Proc.devRef .tc main_v41)
    = layer64 sqMul rtSqrt (agg m c) (X1 m c) (tr (arg m c main_arg10)) (row (arg m c main_arg11))
        (tr (arg m c main_arg12)) (row (arg m c main_arg13)) (tr (arg m c main_arg14)) (row (arg m c main_arg15)) := by
  refine (W8_arr m ρ c 6).trans ((comb3_o (V7 m ρ) c).trans ?_)
  dsimp only [V7]
  rw [W7_v23_0 m ρ c, W7_v36 m ρ c, W7_v37, W7_v38, W7_v39, W7_v40]
  rfl

end Cert.KernelIdeal.Chain

end
-- ==== Proof.IsRealDef.lean ====
/-
  "Every entry is a real number": the predicate under which sums, products and quotients of extended reals are
  computed in the real numbers.
-/
import Mathlib.Data.EReal.Basic

namespace Cert.Spec

/-- Every entry of `f` is (the image of) a real number: none is `+∞` or `-∞`. -/
def IsReal {ι : Type} (f : ι → EReal) : Prop := ∀ i, ∃ r : ℝ, f i = (r : EReal)

end Cert.Spec
-- ==== Proof.LibReal.lean ====
/-
  Closure lemmas for "every entry is a real number" (`Cert.Spec.IsReal`) under the array operations of a
  host program read at the extended reals (`F := Ideal`), where a float is an element of `[-∞, +∞]` and
  every operation is its exact textbook one.

  The extended reals are not a ring: `⊤ + ⊥`, `0 · ⊤` have conventional values, and sums do not reassociate
  through them. A value proof over them therefore first shows that the arrays it handles hold real numbers only,
  and computes in `ℝ` from there. This file supplies that first step, operation by operation:

  * `IsPos f`                    : every entry of `f` is a positive real number (`IsPos.isReal`: so a real one);
  * `exists_real_sum`, `exists_nonneg_real_sum` : a finite sum of (nonnegative) reals is a (nonnegative) real;
  * `isReal_comp`, `isPos_comp` : a re-indexing (precomposition with any index map) of a real array is real —
    in particular `isReal_broadcastInDim` / `isPos_broadcastInDim` (`stablehlo.broadcast_in_dim`) and
    `isReal_gather` / `isPos_gather` (`stablehlo.gather`: each result element is one operand element);
  * `isReal_addf`, `isReal_mulf`, `isPos_mulf` : the elementwise sum and product;
  * `isReal_scatterAdd`, `isPos_scatterAdd` : the accumulating scatter — each operand element plus the finite
    sum of the update elements that land on it;
  * `isReal_dotGeneral` : `stablehlo.dot_general` — each element a finite sum of products;
  * `ofBits_one_f32`, `isPos_constant_one` : the f32 pattern `0x3F800000` is the number 1, so its splat is positive;
  * `isPos_rsqrt` : the reciprocal square root of a positive real `r` is the positive real `(√r)⁻¹` (at `0`, at a
    negative number and at `±∞` it is not a positive real, which is why positivity is tracked).
-/
import Idealize.ShloMosaic.PureOps.Ideal
import Idealize.ShloMosaic.PureOps.Ideal.Laws
import Idealize.ShloMosaic.Lib.ValueIdx
import proofs.«163570_j29978871726568_1_alg».proof.Proof.IsRealDef

noncomputable section

namespace Cert.Real

open Idealize.ShloMosaic Cert.Spec

/-- Every entry is a positive real number. -/
def IsPos {ι : Type} (f : ι → EReal) : Prop := ∀ i, ∃ r : ℝ, 0 < r ∧ f i = (r : EReal)

/-- A positive real is a real. -/
theorem IsPos.isReal {ι : Type} {f : ι → EReal} (h : IsPos f) : IsReal f := fun i => by
  obtain ⟨r, _, hr⟩ := h i
  exact ⟨r, hr⟩

/-! ## Finite sums -/

/-- A finite sum of real numbers, taken in the extended reals, is the real number that is their sum. -/
theorem exists_real_sum {α : Type} (S : Finset α) (f : α → EReal) (h : ∀ j ∈ S, ∃ r : ℝ, f j = (r : EReal)) :
    ∃ r : ℝ, ∑ j ∈ S, f j = (r : EReal) := by
  induction S using Finset.cons_induction with
  | empty => exact ⟨0, by rw [Finset.sum_empty, EReal.coe_zero]⟩
  | cons a S ha ih =>
    obtain ⟨r, hr⟩ := h a (Finset.mem_cons_self a S)
    obtain ⟨t, ht⟩ := ih fun j hj => h j (Finset.mem_cons_of_mem hj)
    exact ⟨r + t, by rw [Finset.sum_cons, hr, ht, EReal.coe_add]⟩

/-- A finite sum of nonnegative real numbers is a nonnegative real number. -/
theorem exists_nonneg_real_sum {α : Type} (S : Finset α) (f : α → EReal)
    (h : ∀ j ∈ S, ∃ r : ℝ, 0 ≤ r ∧ f j = (r : EReal)) : ∃ r : ℝ, 0 ≤ r ∧ ∑ j ∈ S, f j = (r : EReal) := by
  induction S using Finset.cons_induction with
  | empty => exact ⟨0, le_refl 0, by rw [Finset.sum_empty, EReal.coe_zero]⟩
  | cons a S ha ih =>
    obtain ⟨r, hr0, hr⟩ := h a (Finset.mem_cons_self a S)
    obtain ⟨t, ht0, ht⟩ := ih fun j hj => h j (Finset.mem_cons_of_mem hj)
    exact ⟨r + t, add_nonneg hr0 ht0, by rw [Finset.sum_cons, hr, ht, EReal.coe_add]⟩

/-! ## Re-indexings: each result element is one operand element -/

theorem isReal_comp {ι κ : Type} {f : ι → EReal} (h : IsReal f) (g : κ → ι) : IsReal fun j => f (g j) :=
  fun j => h (g j)

theorem isPos_comp {ι κ : Type} {f : ι → EReal} (h : IsPos f) (g : κ → ι) : IsPos fun j => f (g j) :=
  fun j => h (g j)

/-- `stablehlo.broadcast_in_dim` reads one operand element per result element. -/
theorem isReal_broadcastInDim {s t : Shape} (dims : Fin s.rank → Fin t.rank) (h : s.BroadcastsInDim t dims)
    {x : s.Idx → EReal} (hx : IsReal x) : IsReal (broadcastInDim t dims h x) :=
  fun _ => hx _

theorem isPos_broadcastInDim {s t : Shape} (dims : Fin s.rank → Fin t.rank) (h : s.BroadcastsInDim t dims)
    {x : s.Idx → EReal} (hx : IsPos x) : IsPos (broadcastInDim t dims h x) :=
  fun _ => hx _

/-- `stablehlo.gather` reads one operand element per result element, whatever the indices hold. -/
theorem isReal_gather {s si t : Shape} {w : Nat} (d : GatherDims s si t) {x : s.Idx → EReal} (idx : IVec si w)
    (hx : IsReal x) : IsReal (Host.gather d x idx) :=
  fun _ => hx _

theorem isPos_gather {s si t : Shape} {w : Nat} (d : GatherDims s si t) {x : s.Idx → EReal} (idx : IVec si w)
    (hx : IsPos x) : IsPos (Host.gather d x idx) :=
  fun _ => hx _

/-! ## Elementwise sum and product -/

theorem isReal_addf {s : Shape} {φ : FTy} {x y : FVec Ideal s φ} (hx : IsReal x) (hy : IsReal y) :
    IsReal (addf (F := Ideal) x y) := fun i => by
  obtain ⟨a, ha⟩ := hx i
  obtain ⟨b, hb⟩ := hy i
  exact ⟨a + b, by show x i + y i = _; rw [ha, hb, EReal.coe_add]⟩

theorem isReal_mulf {s : Shape} {φ : FTy} {x y : FVec Ideal s φ} (hx : IsReal x) (hy : IsReal y) :
    IsReal (mulf (F := Ideal) x y) := fun i => by
  obtain ⟨a, ha⟩ := hx i
  obtain ⟨b, hb⟩ := hy i
  exact ⟨a * b, by show x i * y i = _; rw [ha, hb, EReal.coe_mul]⟩

theorem isPos_mulf {s : Shape} {φ : FTy} {x y : FVec Ideal s φ} (hx : IsPos x) (hy : IsPos y) :
    IsPos (mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

/-! ## The accumulating scatter: an operand element plus the updates that land on it -/

theorem isReal_scatterAdd {s si u : Shape} {φ : FTy} {w : Nat} (d : ScatterDims s si u) {x : FVec Ideal s φ}
    (idx : IVec si w) {upd : FVec Ideal u φ} (hx : IsReal x) (hu : IsReal upd) :
    IsReal (Host.scatterAdd (F := Ideal) d x idx upd) := fun i => by
  have key : ∀ S : Finset u.Idx, ∃ r : ℝ, x i + ∑ j ∈ S, upd j = (r : EReal) := fun S => by
    obtain ⟨a, ha⟩ := hx i
    obtain ⟨t, ht⟩ := exists_real_sum S upd fun j _ => hu j
    exact ⟨a + t, by rw [ha, ht, EReal.coe_add]⟩
  exact key _

/-- Positive operand elements and positive updates (a count of ones onto ones, say) give positive sums. -/
theorem isPos_scatterAdd {s si u : Shape} {φ : FTy} {w : Nat} (d : ScatterDims s si u) {x : FVec Ideal s φ}
    (idx : IVec si w) {upd : FVec Ideal u φ} (hx : IsPos x) (hu : IsPos upd) :
    IsPos (Host.scatterAdd (F := Ideal) d x idx upd) := fun i => by
  have key : ∀ S : Finset u.Idx, ∃ r : ℝ, 0 < r ∧ x i + ∑ j ∈ S, upd j = (r : EReal) := fun S => by
    obtain ⟨a, ha0, ha⟩ := hx i
    obtain ⟨t, ht0, ht⟩ := exists_nonneg_real_sum S upd fun j _ => by
      obtain ⟨b, hb0, hb⟩ := hu j
      exact ⟨b, hb0.le, hb⟩
    exact ⟨a + t, add_pos_of_pos_of_nonneg ha0 ht0, by rw [ha, ht, EReal.coe_add]⟩
  exact key _

/-! ## The contraction: a finite sum of products -/

theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral (F := Ideal) d prec l r) := fun j => by
  obtain ⟨t, ht⟩ := exists_real_sum Finset.univ (fun k : d.contr.Idx => l (d.lhsIdx j k) * r (d.rhsIdx j k))
    fun k _ => by
      obtain ⟨a, ha⟩ := hl (d.lhsIdx j k)
      obtain ⟨b, hb⟩ := hr (d.rhsIdx j k)
      exact ⟨a * b, by rw [ha, hb, EReal.coe_mul]⟩
  exact ⟨t, (Ideal.dotGeneral_apply d prec .single l r j).trans ht⟩

/-! ## The constant one, and the reciprocal square root of positive numbers -/

/-- The f32 pattern `0x3F800000` denotes the number 1. -/
theorem ofBits_one_f32 : Ideal.ofBits .f32 0x3F800000#32 = 1 := by
  simp [Ideal.ofBits, Ideal.ieee, -EReal.coe_mul]; norm_num

theorem isPos_constant_one (s : Shape) : IsPos (constant (F := Ideal) s .f32 0x3F800000#32) := fun _ =>
  ⟨1, one_pos, by show Ideal.ofBits .f32 0x3F800000#32 = _; rw [ofBits_one_f32, EReal.coe_one]⟩

/-- At a positive real `r` the reciprocal square root is the positive real `(√r)⁻¹`. -/
theorem isPos_rsqrt {s : Shape} {φ : FTy} {x : FVec Ideal s φ} (hx : IsPos x) :
    IsPos (Host.rsqrt (F := Ideal) x) := fun i => by
  obtain ⟨r, hr, hxi⟩ := hx i
  refine ⟨(Real.sqrt r)⁻¹, inv_pos.mpr (Real.sqrt_pos.mpr hr), ?_⟩
  show Ideal.rsqrt (x i) = _
  rw [hxi, Ideal.rsqrt_coe, if_neg (not_lt.mpr hr.le), if_neg hr.ne']

end Cert.Real

end
-- ==== Proof.AggReal.lean ====
/-
  The edge aggregation keeps arrays real.

  Each entry of the aggregate is zero plus a finite sum of products  (a gathered entry of the node array) · (an edge's
  value).  When the node array and the edge values hold real numbers only, every product is a real number, so every
  entry of the aggregate is one — in particular none is -∞, which is what the two spellings of the square root need.
-/
import proofs.«163570_j29978871726568_1_alg».proof.Proof.ChainHead
import proofs.«163570_j29978871726568_1_alg».proof.Proof.LibReal

noncomputable section

namespace Cert.KernelIdeal.Chain

open Cert.KernelIdeal Cert.KernelIdeal.Gen Idealize.ShloMosaic Cert.Spec

/-- The zero literal, splat, is a real array. -/
theorem isReal_zero : IsReal (constant (F := Ideal) S_ .f32 0x00000000#32) := fun _ =>
  ⟨0, by show Ideal.ofBits .f32 0x00000000#32 = _; rw [Ideal.ofBits_zero_f32, EReal.coe_zero]⟩

/-- Real node features and real edge values aggregate to a real array, whatever the edges' endpoints are. -/
theorem isReal_aggK (src dst : IVec S800000 32) {val : FVec Ideal S800000 .f32} (hval : IsReal val)
    (f : FVec Ideal S50000x128 .f32) (hf : IsReal f) : IsReal (aggK src dst val f) := by
  unfold aggK
  refine Cert.Real.isReal_scatterAdd _ _ ?_ ?_
  · exact Cert.Real.isReal_broadcastInDim _ _ isReal_zero
  · exact Cert.Real.isReal_mulf (Cert.Real.isReal_gather _ _ hf)
      (Cert.Real.isReal_broadcastInDim _ _ (Cert.Real.isReal_broadcastInDim _ _ hval))

end Cert.KernelIdeal.Chain

end
-- ==== Proof.RefValue.lean ====
/-
  The reference program is the specification's two layers at the power function.

  Each layer of the reference divides every row of its input by the row's clipped Euclidean norm, sends it through the
  pooling weight, bias and a rectifier, raises the pooled features to the exponent `2`, aggregates them over the edges,
  raises the aggregate to the exponent `1/2`, and adds the two projections (of the pooled features and of that root)
  with their biases; the first layer rectifies the sum. Read index by index on the extended reals, each stage is the
  corresponding line of the specification: a contraction is a sum over its 128 summands, a broadcast reads its operand
  at the coordinates it keeps, a transposed weight is the weight read at swapped coordinates. The edge aggregation is
  carried as one function `aggR` of the array it is given and is never read at an index.
-/
import proofs.«163570_j29978871726568_1_alg».proof.Proof.Gen.ReferenceIdeal.Read
import proofs.«163570_j29978871726568_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The edge aggregation: gather rows by (wrapped) source node, scale by the edge value, scatter-add by target node.
    Both layers apply it, to the squared pooled features; its value is never read element by element. -/
def aggR (x1 x2 : (⟨S800000, .i32⟩ : BufTy).Contents (Elt Ideal)) (x3 : (⟨S800000, .f32⟩ : BufTy).Contents (Elt Ideal))
    (hm : (⟨S50000x128, .f32⟩ : BufTy).Contents (Elt Ideal)) : (⟨S50000x128, .f32⟩ : BufTy).Contents (Elt Ideal) :=
  Host.scatterAdd (F := Ideal) (φ := .f32) scatter_S50000x128_S800000x1_S800000x128_1_0_0_1 (val_main_v23 (F := Ideal)) (val_main_v24 (F := Ideal) x2)
    (mulf (F := Ideal) (φ := .f32) (Host.gather (α := Ideal .f32) gather_S50000x128_S800000x1_S800000x128_1_0_n_n_0_1_1128 hm (val_main_v18 (F := Ideal) x1)) (val_main_v21 (F := Ideal) x3))

/-! ## One layer's stages, over the layer's input -/

/-- The pooled features of a layer whose input is `x0`: the input's rows, each divided by its clipped norm, through the
    pooling weight and bias and a rectifier. Stated over an arbitrary input, so that it serves both layers. -/
theorem pool0 (x0 : (⟨S50000x128, .f32⟩ : BufTy).Contents (Elt Ideal)) (x4 : (⟨S128x128, .f32⟩ : BufTy).Contents (Elt Ideal)) (x5 : (⟨S128, .f32⟩ : BufTy).Contents (Elt Ideal)) :
    val_main_v10 (F := Ideal) x0 x4 x5 = Cert.Sage.pool x0 (Cert.Sage.tr x4) (Cert.Sage.row x5) := by
  funext i
  obtain ⟨r, c, rfl⟩ : ∃ (r : Fin 50000) (c : Fin 128), i = ix2 r c := ⟨i 0, i 1, eq_ix2 i⟩
  have e1 : ∀ k : Fin 128, lidx_main_v6 (ix2 r c) k = ix2 r k := fun k => funext fun a => by match a with | ⟨0, _⟩ => rfl | ⟨1, _⟩ => rfl
  have e2 : ∀ k k' : Fin 128, idx_main_call0_v1 (idx_main_call0_v2 (idx_main_v3 (ix2 r k))) k' = ix2 r k' := fun k k' => funext fun a => by match a with | ⟨0, _⟩ => rfl | ⟨1, _⟩ => rfl
  have e3 : ∀ k : Fin 128, idx_main_v5 (ridx_main_v6 (ix2 r c) k) = ix2 c k := fun k => funext fun a => by match a with | ⟨0, _⟩ => rfl | ⟨1, _⟩ => rfl
  have e4 : idx_main_v7 (idx_main_v8 (ix2 r c)) = ix1 c := funext fun a => by match a with | ⟨0, _⟩ => rfl
  simp only [val_main_v10_apply, val_main_v9_apply, val_main_v6_apply, val_main_v4_apply, val_main_v3_apply, val_main_v2_apply, val_main_v0_apply, val_main_call0_v2_apply, val_main_call0_v1_apply, val_main_call0_v0_apply, val_main_call0_cst_apply, val_main_v1_apply, val_main_cst_apply, val_main_v5_apply, val_main_v8_apply, val_main_v7_apply, val_main_call1_v0_apply, val_main_call1_cst_apply,
    Ideal.maximumf_def, Ideal.addf_def, Ideal.mulf_def, Ideal.hostDivf_def, Ideal.hostUnary_sqrt_def, Ideal.hostPowf_def, Ideal.ofBits_def, e1, e2, e3, e4, Ideal.ofBits_zero_f32, zero_add]
  simp only [Cert.Sage.pool, Cert.Sage.poolAt, Cert.Sage.nrm, Cert.Sage.tr, Cert.Sage.row, Cert.Sage.eps]

/-- The power mean's inner exponent: every pooled feature raised to the literal `2`. -/
theorem sq0 (x0 : (⟨S50000x128, .f32⟩ : BufTy).Contents (Elt Ideal)) (x4 : (⟨S128x128, .f32⟩ : BufTy).Contents (Elt Ideal)) (x5 : (⟨S128, .f32⟩ : BufTy).Contents (Elt Ideal)) :
    val_main_v12 (F := Ideal) x0 x4 x5 = fun i => Cert.Sage.sqPow (val_main_v10 (F := Ideal) x0 x4 x5 i) := by
  funext i
  rw [val_main_v12_apply, val_main_v11_apply, val_main_cst_0_apply]
  rfl

/-- The first layer's aggregate is the shared aggregation of the squared pooled features. -/
theorem agg0 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) :
    val_main_v25 (F := Ideal) x0 x1 x2 x3 x4 x5 = aggR x1 x2 x3 (val_main_v12 (F := Ideal) x0 x4 x5) := rfl

/-- The power mean's outer exponent: every aggregate raised to the literal `1/2`. -/
theorem rt0 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) :
    val_main_v27 (F := Ideal) x0 x1 x2 x3 x4 x5 = fun i => Cert.Sage.rtPow (val_main_v25 (F := Ideal) x0 x1 x2 x3 x4 x5 i) := by
  funext i
  rw [val_main_v27_apply, val_main_v26_apply, val_main_cst_3_apply]
  rfl

/-- The first layer's output: the pooled features and the root of the aggregate through their projections, summed and rectified. -/
theorem comb0 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v39 (F := Ideal) x0 x1 x2 x3 x4 x5 x6 x7 x8 x9 = Cert.Sage.comb128 Cert.Sage.rtPow (val_main_v10 (F := Ideal) x0 x4 x5) (val_main_v25 (F := Ideal) x0 x1 x2 x3 x4 x5)
        (Cert.Sage.tr x6) (Cert.Sage.row x7) (Cert.Sage.tr x8) (Cert.Sage.row x9) := by
  funext i
  obtain ⟨r, c, rfl⟩ : ∃ (r : Fin 50000) (c : Fin 128), i = ix2 r c := ⟨i 0, i 1, eq_ix2 i⟩
  have e1 : ∀ k : Fin 128, lidx_main_v29 (ix2 r c) k = ix2 r k := fun k => funext fun a => by match a with | ⟨0, _⟩ => rfl | ⟨1, _⟩ => rfl
  have e2 : ∀ k : Fin 128, idx_main_v28 (ridx_main_v29 (ix2 r c) k) = ix2 c k := fun k => funext fun a => by match a with | ⟨0, _⟩ => rfl | ⟨1, _⟩ => rfl
  have e3 : idx_main_v30 (idx_main_v31 (ix2 r c)) = ix1 c := funext fun a => by match a with | ⟨0, _⟩ => rfl
  have e4 : ∀ k : Fin 128, lidx_main_v34 (ix2 r c) k = ix2 r k := fun k => funext fun a => by match a with | ⟨0, _⟩ => rfl | ⟨1, _⟩ => rfl
  have e5 : ∀ k : Fin 128, idx_main_v33 (ridx_main_v34 (ix2 r c) k) = ix2 c k := fun k => funext fun a => by match a with | ⟨0, _⟩ => rfl | ⟨1, _⟩ => rfl
  have e6 : idx_main_v35 (idx_main_v36 (ix2 r c)) = ix1 c := funext fun a => by match a with | ⟨0, _⟩ => rfl
  rw [val_main_v39_apply, val_main_v38_apply, val_main_v32_apply, val_main_v37_apply, val_main_v29_apply, val_main_v34_apply, val_main_v31_apply, val_main_v30_apply, val_main_v36_apply, val_main_v35_apply, val_main_call2_v0_apply, val_main_call2_cst_apply, rt0, e3, e6]
  generalize val_main_v25 (F := Ideal) x0 x1 x2 x3 x4 x5 = a
  generalize val_main_v10 (F := Ideal) x0 x4 x5 = h
  simp only [val_main_v28_apply, val_main_v33_apply, Ideal.maximumf_def, Ideal.addf_def, Ideal.mulf_def, Ideal.hostDivf_def, Ideal.hostUnary_sqrt_def, Ideal.hostPowf_def, Ideal.ofBits_def, e1, e2, e4, e5, Ideal.ofBits_zero_f32]
  simp only [Cert.Sage.comb128, Cert.Sage.combAt, Cert.Sage.tr, Cert.Sage.row]

/-! ## The second layer: the same stages over the first layer's output -/

/-- The second layer's pooled features are the first layer's operations again, applied to the first layer's output. -/
theorem pool1 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v50 (F := Ideal) x0 x1 x2 x3 x4 x5 x6 x7 x8 x9 x10 x11
      = Cert.Sage.pool (val_main_v39 (F := Ideal) x0 x1 x2 x3 x4 x5 x6 x7 x8 x9) (Cert.Sage.tr x10) (Cert.Sage.row x11) :=
  (rfl : val_main_v50 (F := Ideal) x0 x1 x2 x3 x4 x5 x6 x7 x8 x9 x10 x11 = val_main_v10 (F := Ideal) (val_main_v39 (F := Ideal) x0 x1 x2 x3 x4 x5 x6 x7 x8 x9) x10 x11).trans
    (pool0 _ x10 x11)

/-- The second layer's squared pooled features. -/
theorem sq1 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v52 (F := Ideal) x0 x1 x2 x3 x4 x5 x6 x7 x8 x9 x10 x11 = fun i => Cert.Sage.sqPow (val_main_v50 (F := Ideal) x0 x1 x2 x3 x4 x5 x6 x7 x8 x9 x10 x11 i) := by
  funext i
  rw [val_main_v52_apply, val_main_v51_apply, val_main_cst_5_apply]
  rfl

/-- The second layer's aggregate is the shared aggregation of its squared pooled features: it spells the wrapped source
    nodes, the edge values, the zero start and the target nodes again, as the same terms. -/
theorem agg1 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v65 (F := Ideal) x0 x1 x2 x3 x4 x5 x6 x7 x8 x9 x10 x11 = aggR x1 x2 x3 (val_main_v52 (F := Ideal) x0 x1 x2 x3 x4 x5 x6 x7 x8 x9 x10 x11) := rfl

/-- The root of the second layer's aggregate. -/
theorem rt1 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v67 (F := Ideal) x0 x1 x2 x3 x4 x5 x6 x7 x8 x9 x10 x11 = fun i => Cert.Sage.rtPow (val_main_v65 (F := Ideal) x0 x1 x2 x3 x4 x5 x6 x7 x8 x9 x10 x11 i) := by
  funext i
  rw [val_main_v67_apply, val_main_v66_apply, val_main_cst_9_apply]
  rfl

/-- The result: the second layer's pooled features and the root of its aggregate through the 64-channel projections, summed. -/
theorem comb1 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S64x128, .f32⟩ : BufTy).Contents (Elt Ideal)) (x13 : (⟨S64, .f32⟩ : BufTy).Contents (Elt Ideal)) (x14 : (⟨S64x128, .f32⟩ : BufTy).Contents (Elt Ideal)) (x15 : (⟨S64, .f32⟩ : BufTy).Contents (Elt Ideal)) :
    val_main_v78 (F := Ideal) x0 x1 x2 x3 x4 x5 x6 x7 x8 x9 x10 x11 x12 x13 x14 x15 = Cert.Sage.comb64 Cert.Sage.rtPow (val_main_v50 (F := Ideal) x0 x1 x2 x3 x4 x5 x6 x7 x8 x9 x10 x11) (val_main_v65 (F := Ideal) x0 x1 x2 x3 x4 x5 x6 x7 x8 x9 x10 x11)
        (Cert.Sage.tr x12) (Cert.Sage.row x13) (Cert.Sage.tr x14) (Cert.Sage.row x15) := by
  funext i
  obtain ⟨r, c, rfl⟩ : ∃ (r : Fin 50000) (c : Fin 64), i = ix2 r c := ⟨i 0, i 1, eq_ix2 i⟩
  have e1 : ∀ k : Fin 128, lidx_main_v69 (ix2 r c) k = ix2 r k := fun k => funext fun a => by match a with | ⟨0, _⟩ => rfl | ⟨1, _⟩ => rfl
  have e2 : ∀ k : Fin 128, idx_main_v68 (ridx_main_v69 (ix2 r c) k) = ix2 c k := fun k => funext fun a => by match a with | ⟨0, _⟩ => rfl | ⟨1, _⟩ => rfl
  have e3 : idx_main_v70 (idx_main_v71 (ix2 r c)) = ix1 c := funext fun a => by match a with | ⟨0, _⟩ => rfl
  have e4 : ∀ k : Fin 128, lidx_main_v74 (ix2 r c) k = ix2 r k := fun k => funext fun a => by match a with | ⟨0, _⟩ => rfl | ⟨1, _⟩ => rfl
  have e5 : ∀ k : Fin 128, idx_main_v73 (ridx_main_v74 (ix2 r c) k) = ix2 c k := fun k => funext fun a => by match a with | ⟨0, _⟩ => rfl | ⟨1, _⟩ => rfl
  have e6 : idx_main_v75 (idx_main_v76 (ix2 r c)) = ix1 c := funext fun a => by match a with | ⟨0, _⟩ => rfl
  rw [val_main_v78_apply, val_main_v72_apply, val_main_v77_apply, val_main_v69_apply, val_main_v74_apply, val_main_v71_apply, val_main_v70_apply, val_main_v76_apply, val_main_v75_apply, rt1, e3, e6]
  generalize val_main_v65 (F := Ideal) x0 x1 x2 x3 x4 x5 x6 x7 x8 x9 x10 x11 = a
  generalize val_main_v50 (F := Ideal) x0 x1 x2 x3 x4 x5 x6 x7 x8 x9 x10 x11 = h
  simp only [val_main_v68_apply, val_main_v73_apply, Ideal.maximumf_def, Ideal.addf_def, Ideal.mulf_def, Ideal.hostDivf_def, Ideal.hostUnary_sqrt_def, Ideal.hostPowf_def, Ideal.ofBits_def, e1, e2, e4, e5]
  simp only [Cert.Sage.comb64, Cert.Sage.combAt, Cert.Sage.tr, Cert.Sage.row]

/-! ## The reference's value -/

/-- The first layer's output is the hidden layer of the specification at the power function. -/
theorem layer0 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v39 (F := Ideal) x0 x1 x2 x3 x4 x5 x6 x7 x8 x9
      = Cert.Sage.layer128 Cert.Sage.sqPow Cert.Sage.rtPow (aggR x1 x2 x3) x0 (Cert.Sage.tr x4) (Cert.Sage.row x5) (Cert.Sage.tr x6) (Cert.Sage.row x7) (Cert.Sage.tr x8) (Cert.Sage.row x9) := by
  unfold Cert.Sage.layer128
  rw [comb0, agg0, sq0, pool0]

/-- The reference computes the two layers of the specification, with the power mean spelt by the general power function. -/
theorem ref_value (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S64x128, .f32⟩ : BufTy).Contents (Elt Ideal)) (x13 : (⟨S64, .f32⟩ : BufTy).Contents (Elt Ideal)) (x14 : (⟨S64x128, .f32⟩ : BufTy).Contents (Elt Ideal)) (x15 : (⟨S64, .f32⟩ : BufTy).Contents (Elt Ideal)) :
    val_main_v78 (F := Ideal) x0 x1 x2 x3 x4 x5 x6 x7 x8 x9 x10 x11 x12 x13 x14 x15
      = Cert.Sage.layer64 Cert.Sage.sqPow Cert.Sage.rtPow (aggR x1 x2 x3)
          (Cert.Sage.layer128 Cert.Sage.sqPow Cert.Sage.rtPow (aggR x1 x2 x3) x0 (Cert.Sage.tr x4) (Cert.Sage.row x5) (Cert.Sage.tr x6) (Cert.Sage.row x7) (Cert.Sage.tr x8) (Cert.Sage.row x9))
          (Cert.Sage.tr x10) (Cert.Sage.row x11) (Cert.Sage.tr x12) (Cert.Sage.row x13) (Cert.Sage.tr x14) (Cert.Sage.row x15) := by
  unfold Cert.Sage.layer64
  rw [comb1, agg1, sq1, pool1, layer0]

end Cert.ReferenceIdeal.RefValue

end
-- ==== Proof.RealLayer.lean ====
/-
  The realness algebra of the layer.

  On the extended reals the two spellings of the power mean of exponent 2 (a product and the square root of the
  positive part, against the general power function at the exponents 2 and 1/2) agree at every real argument and at
  +∞, and differ at -∞: the power of -∞ is -∞, while (-∞)·(-∞) = +∞ and the square root of max (-∞) 0 is 0.
  The pooled feature is a maximum with 0, so the square is only ever taken of a nonnegative number; the root is taken
  of the aggregate, which is a real number as soon as every input array holds real numbers only. This file carries
  "every entry is a real number" through the pooling and the output projections, and concludes that the two spellings
  give the same layer on real inputs.
-/
import proofs.«163570_j29978871726568_1_alg».proof.Proof.Spec
import proofs.«163570_j29978871726568_1_alg».proof.Proof.IsRealDef

noncomputable section
namespace Cert.Sage
open Idealize.ShloMosaic Idealize.ShloMosaic.ValueIdx
open Cert.Spec (IsReal)

/-! ## The literals -/

/-- The exponent literal 2.0 is the number 2. -/
private theorem two_eq : two = ((2 : ℝ) : EReal) := by
  unfold two
  simp [Ideal.ofBits, Ideal.ieee, -EReal.coe_mul]
  norm_num

/-- The exponent literal 0.5 is the number 1/2. -/
private theorem half_eq : half = ((1 / 2 : ℝ) : EReal) := by
  unfold half
  simp [Ideal.ofBits, Ideal.ieee, -EReal.coe_mul]
  norm_num

/-- The clip of the norm is a positive real number. -/
private theorem eps_pos : ∃ e : ℝ, 0 < e ∧ eps = (e : EReal) := by
  unfold eps
  simp [Ideal.ofBits, Ideal.ieee, -EReal.coe_mul]

/-- The maximum of two real numbers, taken in the extended reals, is their maximum. -/
private theorem max_coe_coe (a b : ℝ) : max (a : EReal) (b : EReal) = ((max a b : ℝ) : EReal) :=
  (EReal.coe_strictMono.monotone.map_max).symm

/-! ## The two spellings of the square and of the root -/

/-- The pooled feature is a maximum with 0. -/
theorem pool_nonneg (x : Nodes.Idx → EReal) (wT : (Mat 128 128).Idx → EReal) (b : (Mat 1 128).Idx → EReal)
    (i : Nodes.Idx) : 0 ≤ pool x wT b i :=
  le_max_right _ _

/-- The power at the exponent 2 is the product, at every nonnegative real number and at +∞. -/
theorem sqPow_eq {h : EReal} (h0 : 0 ≤ h) : sqPow h = sqMul h := by
  unfold sqPow sqMul
  rw [two_eq]
  induction h using EReal.rec with
  | bot => exact absurd h0 (by simp)
  | top =>
    rw [Ideal.pow_top, if_pos (by exact_mod_cast (by norm_num : (0 : ℝ) < 2))]
    rfl
  | coe r =>
    rw [Ideal.pow_coe_coe, ← EReal.coe_mul]
    congr 1
    show r ^ (2 : ℝ) = r * r
    rw [Real.rpow_two, sq]

/-- The power at the exponent 1/2 is the square root of the positive part, at every real number: for a negative
    number both are 0. -/
theorem rtPow_eq (r : ℝ) : rtPow (r : EReal) = rtSqrt (r : EReal) := by
  unfold rtPow rtSqrt
  rw [half_eq, Ideal.pow_coe_coe, ← EReal.coe_zero, max_coe_coe, Ideal.sqrt_coe,
    if_neg (not_lt.mpr (le_max_right r 0))]
  congr 1
  show r ^ (1 / 2 : ℝ) = Real.sqrt (max r 0)
  rw [← Real.sqrt_eq_rpow]
  rcases le_total 0 r with hr | hr
  · rw [max_eq_left hr]
  · rw [max_eq_right hr, Real.sqrt_zero, Real.sqrt_eq_zero_of_nonpos hr]

/-! ## Finite sums of real numbers -/

/-- A finite sum of real numbers, taken in the extended reals, is a real number. -/
private theorem exists_real_sum {α : Type} (S : Finset α) (f : α → EReal) (h : ∀ j ∈ S, ∃ r : ℝ, f j = (r : EReal)) :
    ∃ r : ℝ, ∑ j ∈ S, f j = (r : EReal) := by
  induction S using Finset.cons_induction with
  | empty => exact ⟨0, by rw [Finset.sum_empty, EReal.coe_zero]⟩
  | cons a S ha ih =>
    obtain ⟨r, hr⟩ := h a (Finset.mem_cons_self a S)
    obtain ⟨t, ht⟩ := ih fun j hj => h j (Finset.mem_cons_of_mem hj)
    exact ⟨r + t, by rw [Finset.sum_cons, hr, ht, EReal.coe_add]⟩

/-- A finite sum of nonnegative real numbers is a nonnegative real number. -/
private theorem exists_nonneg_real_sum {α : Type} (S : Finset α) (f : α → EReal)
    (h : ∀ j ∈ S, ∃ r : ℝ, 0 ≤ r ∧ f j = (r : EReal)) : ∃ r : ℝ, 0 ≤ r ∧ ∑ j ∈ S, f j = (r : EReal) := by
  induction S using Finset.cons_induction with
  | empty => exact ⟨0, le_refl 0, by rw [Finset.sum_empty, EReal.coe_zero]⟩
  | cons a S ha ih =>
    obtain ⟨r, hr0, hr⟩ := h a (Finset.mem_cons_self a S)
    obtain ⟨t, ht0, ht⟩ := ih fun j hj => h j (Finset.mem_cons_of_mem hj)
    exact ⟨r + t, add_nonneg hr0 ht0, by rw [Finset.sum_cons, hr, ht, EReal.coe_add]⟩

/-- A sum of products of real numbers plus a real number is a real number: one projection and its bias. -/
private theorem exists_real_affine {α : Type} [Fintype α] (f g : α → EReal) (c : EReal)
    (hf : ∀ k, ∃ r : ℝ, f k = (r : EReal)) (hg : ∀ k, ∃ r : ℝ, g k = (r : EReal)) (hc : ∃ r : ℝ, c = (r : EReal)) :
    ∃ r : ℝ, (∑ k, f k * g k) + c = (r : EReal) := by
  obtain ⟨s, hs⟩ := exists_real_sum Finset.univ (fun k => f k * g k) fun k _ => by
    obtain ⟨a, ha⟩ := hf k
    obtain ⟨b, hb⟩ := hg k
    exact ⟨a * b, by rw [ha, hb, EReal.coe_mul]⟩
  obtain ⟨t, ht⟩ := hc
  exact ⟨s + t, by rw [hs, ht, EReal.coe_add]⟩

/-! ## Re-indexings -/

theorem isReal_tr {a b : Nat} {w : (Mat a b).Idx → EReal} (hw : IsReal w) : IsReal (tr w) :=
  fun i => hw (ix2 (i 1) (i 0))

theorem isReal_row {n : Nat} {b : (⟨1, ![n]⟩ : Shape).Idx → EReal} (hb : IsReal b) : IsReal (row b) :=
  fun i => hb (ix1 (i 1))

/-! ## The pooling -/

/-- The clipped norm of a row of real numbers is a positive real number: the sum of squares is a nonnegative real, its
    root a real, and the clip is positive. -/
private theorem nrm_pos {x : Nodes.Idx → EReal} (hx : IsReal x) (r : Fin 50000) : ∃ n : ℝ, 0 < n ∧ nrm x r = (n : EReal) := by
  obtain ⟨e, he0, he⟩ := eps_pos
  obtain ⟨s, hs0, hs⟩ := exists_nonneg_real_sum Finset.univ (fun j : Fin 128 => x (ix2 r j) * x (ix2 r j))
    fun j _ => by
      obtain ⟨a, ha⟩ := hx (ix2 r j)
      exact ⟨a * a, mul_self_nonneg a, by rw [ha, EReal.coe_mul]⟩
  refine ⟨max (Real.sqrt s) e, lt_max_of_lt_right he0, ?_⟩
  unfold nrm
  rw [hs, Ideal.sqrt_coe, if_neg (not_lt.mpr hs0), he, max_coe_coe]

/-- The pooled feature of real inputs is a real number. -/
private theorem poolAt_real {x : Nodes.Idx → EReal} {wT : (Mat 128 128).Idx → EReal} {b : (Mat 1 128).Idx → EReal}
    (hx : IsReal x) (hw : IsReal wT) (hb : IsReal b) (r : Fin 50000) (c : Fin 128) :
    ∃ t : ℝ, poolAt x wT b r c = (t : EReal) := by
  obtain ⟨n, hn0, hn⟩ := nrm_pos hx r
  obtain ⟨s, hs⟩ := exists_real_affine (fun k : Fin 128 => Ideal.div (x (ix2 r k)) (nrm x r)) (fun k => wT (ix2 k c))
    (b (ix2 (0 : Fin 1) c))
    (fun k => by
      obtain ⟨a, ha⟩ := hx (ix2 r k)
      exact ⟨a * (1 / n), by rw [hn, Ideal.div_coe (ne_of_gt hn0), ha, EReal.coe_mul]⟩)
    (fun k => hw (ix2 k c)) (hb (ix2 (0 : Fin 1) c))
  refine ⟨max s 0, ?_⟩
  unfold poolAt
  rw [hs, ← EReal.coe_zero, max_coe_coe]

theorem isReal_pool {x : Nodes.Idx → EReal} {wT : (Mat 128 128).Idx → EReal} {b : (Mat 1 128).Idx → EReal}
    (hx : IsReal x) (hw : IsReal wT) (hb : IsReal b) : IsReal (pool x wT b) :=
  fun i => poolAt_real hx hw hb (i 0) (i 1)

theorem isReal_sqMul {h : Nodes.Idx → EReal} (hh : IsReal h) : IsReal (fun i => sqMul (h i)) := fun i => by
  obtain ⟨a, ha⟩ := hh i
  exact ⟨a * a, by show h i * h i = _; rw [ha, EReal.coe_mul]⟩

/-! ## The output projections -/

/-- The root of the positive part of a real number is a real number. -/
private theorem rtSqrt_real (r : ℝ) : ∃ t : ℝ, rtSqrt (r : EReal) = (t : EReal) := by
  refine ⟨Real.sqrt (max r 0), ?_⟩
  unfold rtSqrt
  rw [← EReal.coe_zero, max_coe_coe, Ideal.sqrt_coe, if_neg (not_lt.mpr (le_max_right r 0))]

/-- The two projections of real arrays, with the root spelled as a square root, give a real number. -/
private theorem combAt_real {P : Nat} {h a : Nodes.Idx → EReal} {w1T w2T : (Mat 128 P).Idx → EReal}
    {b1 b2 : (Mat 1 P).Idx → EReal} (hh : IsReal h) (ha : IsReal a) (hw1 : IsReal w1T) (hb1 : IsReal b1)
    (hw2 : IsReal w2T) (hb2 : IsReal b2) (r : Fin 50000) (c : Fin P) :
    ∃ t : ℝ, combAt rtSqrt h a w1T b1 w2T b2 r c = (t : EReal) := by
  obtain ⟨s, hs⟩ := exists_real_affine (fun k : Fin 128 => h (ix2 r k)) (fun k => w1T (ix2 k c)) (b1 (ix2 (0 : Fin 1) c))
    (fun k => hh (ix2 r k)) (fun k => hw1 (ix2 k c)) (hb1 (ix2 (0 : Fin 1) c))
  obtain ⟨t, ht⟩ := exists_real_affine (fun k : Fin 128 => rtSqrt (a (ix2 r k))) (fun k => w2T (ix2 k c))
    (b2 (ix2 (0 : Fin 1) c))
    (fun k => by
      obtain ⟨u, hu⟩ := ha (ix2 r k)
      rw [hu]
      exact rtSqrt_real u)
    (fun k => hw2 (ix2 k c)) (hb2 (ix2 (0 : Fin 1) c))
  refine ⟨s + t, ?_⟩
  unfold combAt
  rw [hs, ht, EReal.coe_add]

theorem isReal_comb128 {h a : Nodes.Idx → EReal} {w1T w2T : (Mat 128 128).Idx → EReal} {b1 b2 : (Mat 1 128).Idx → EReal}
    (hh : IsReal h) (ha : IsReal a) (hw1 : IsReal w1T) (hb1 : IsReal b1) (hw2 : IsReal w2T) (hb2 : IsReal b2) :
    IsReal (comb128 rtSqrt h a w1T b1 w2T b2) := fun i => by
  obtain ⟨t, ht⟩ := combAt_real hh ha hw1 hb1 hw2 hb2 (i 0) (i 1)
  refine ⟨max t 0, ?_⟩
  show max (combAt rtSqrt h a w1T b1 w2T b2 (i 0) (i 1)) 0 = _
  rw [ht, ← EReal.coe_zero, max_coe_coe]

/-! ## The two spellings give the same layer -/

/-- Where the aggregate is real, the root spelled as a power is the root spelled as a square root, so the two
    projections agree; the weights play no part. -/
private theorem combAt_rt_eq {P : Nat} (h : Nodes.Idx → EReal) {a : Nodes.Idx → EReal} (ha : IsReal a)
    (w1T : (Mat 128 P).Idx → EReal) (b1 : (Mat 1 P).Idx → EReal) (w2T : (Mat 128 P).Idx → EReal)
    (b2 : (Mat 1 P).Idx → EReal) (r : Fin 50000) (c : Fin P) :
    combAt rtPow h a w1T b1 w2T b2 r c = combAt rtSqrt h a w1T b1 w2T b2 r c := by
  have e : ∀ k : Fin 128, rtPow (a (ix2 r k)) = rtSqrt (a (ix2 r k)) := fun k => by
    obtain ⟨u, hu⟩ := ha (ix2 r k)
    rw [hu, rtPow_eq]
  unfold combAt
  simp only [e]

/-- The squares of the pooled features, in either spelling, are the same array: a pooled feature is nonnegative. -/
private theorem sq_pool_eq (x : Nodes.Idx → EReal) (wT : (Mat 128 128).Idx → EReal) (b : (Mat 1 128).Idx → EReal) :
    (fun i => sqPow (pool x wT b i)) = fun i => sqMul (pool x wT b i) :=
  funext fun i => sqPow_eq (pool_nonneg x wT b i)

/-- The two spellings of the layer agree on real inputs, for any aggregation that sends real arrays to real arrays. -/
theorem layer128_pow_eq (agg : (Nodes.Idx → EReal) → Nodes.Idx → EReal) (hagg : ∀ f, IsReal f → IsReal (agg f))
    {x : Nodes.Idx → EReal} {wT : (Mat 128 128).Idx → EReal} {b : (Mat 1 128).Idx → EReal}
    (w1T : (Mat 128 128).Idx → EReal) (b1 : (Mat 1 128).Idx → EReal) (w2T : (Mat 128 128).Idx → EReal)
    (b2 : (Mat 1 128).Idx → EReal) (hx : IsReal x) (hw : IsReal wT) (hb : IsReal b) :
    layer128 sqPow rtPow agg x wT b w1T b1 w2T b2 = layer128 sqMul rtSqrt agg x wT b w1T b1 w2T b2 := by
  have hA : IsReal (agg fun i => sqMul (pool x wT b i)) := hagg _ (isReal_sqMul (isReal_pool hx hw hb))
  unfold layer128 comb128
  rw [sq_pool_eq]
  funext i
  exact congrArg (fun t => max t 0) (combAt_rt_eq _ hA w1T b1 w2T b2 (i 0) (i 1))

/-- The same for the last layer. -/
theorem layer64_pow_eq (agg : (Nodes.Idx → EReal) → Nodes.Idx → EReal) (hagg : ∀ f, IsReal f → IsReal (agg f))
    {x : Nodes.Idx → EReal} {wT : (Mat 128 128).Idx → EReal} {b : (Mat 1 128).Idx → EReal}
    (w1T : (Mat 128 64).Idx → EReal) (b1 : (Mat 1 64).Idx → EReal) (w2T : (Mat 128 64).Idx → EReal)
    (b2 : (Mat 1 64).Idx → EReal) (hx : IsReal x) (hw : IsReal wT) (hb : IsReal b) :
    layer64 sqPow rtPow agg x wT b w1T b1 w2T b2 = layer64 sqMul rtSqrt agg x wT b w1T b1 w2T b2 := by
  have hA : IsReal (agg fun i => sqMul (pool x wT b i)) := hagg _ (isReal_sqMul (isReal_pool hx hw hb))
  unfold layer64 comb64
  rw [sq_pool_eq]
  funext i
  exact combAt_rt_eq _ hA w1T b1 w2T b2 (i 0) (i 1)

/-- A hidden layer sends real inputs to a real array, so the next layer's input is real again. -/
theorem isReal_layer128 (agg : (Nodes.Idx → EReal) → Nodes.Idx → EReal) (hagg : ∀ f, IsReal f → IsReal (agg f))
    {x : Nodes.Idx → EReal} {wT : (Mat 128 128).Idx → EReal} {b : (Mat 1 128).Idx → EReal}
    {w1T : (Mat 128 128).Idx → EReal} {b1 : (Mat 1 128).Idx → EReal} {w2T : (Mat 128 128).Idx → EReal}
    {b2 : (Mat 1 128).Idx → EReal} (hx : IsReal x) (hw : IsReal wT) (hb : IsReal b) (hw1 : IsReal w1T)
    (hb1 : IsReal b1) (hw2 : IsReal w2T) (hb2 : IsReal b2) :
    IsReal (layer128 sqMul rtSqrt agg x wT b w1T b1 w2T b2) :=
  isReal_comb128 (isReal_pool hx hw hb) (hagg _ (isReal_sqMul (isReal_pool hx hw hb))) hw1 hb1 hw2 hb2

end Cert.Sage

end
-- ==== Proof.PreReal.lean ====
/-
  FROM THE PRECONDITION TO "EVERY FLOAT INPUT IS A REAL NUMBER".

  The precondition computes, for each of the fourteen float arrays a, the bit  all(|a| < +∞)  and requires the
  conjunction of the fourteen bits to be 1. Over the extended reals |x| is max x (-x), and  max x (-x) < ⊤  excludes
  both infinities: x = ⊤ gives max ⊤ ⊥ = ⊤, and x = ⊥ gives -⊥ = ⊤. What is left is (the image of) a real number.
-/
import proofs.«163570_j29978871726568_1_alg».proof.Defs
import proofs.«163570_j29978871726568_1_alg».proof.Proof.Gen.Pre_finite_inputs
import proofs.«163570_j29978871726568_1_alg».proof.Proof.IsRealDef
import Idealize.ShloMosaic.Lib.ReduceAll
import Idealize.ShloMosaic.Lib.ValueIdx
import Idealize.ShloMosaic.PureOps.Ideal.Laws

noncomputable section

namespace Cert.PreReal

open Idealize.ShloMosaic Idealize.SL.Sem
open Cert.Spec
open Cert.Pre_finite_inputs (S_ S50000x128 S800000 S128x128 S128 S64x128 S64)

/-- The shape of a scalar has exactly one index. -/
instance : Subsingleton S_.Idx := ⟨fun a b => funext fun d => d.elim0⟩

/-- The word 0x7F800000 read as an extended real is +∞. -/
theorem inf_word : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The element test  |x| < +∞  (an ordered less-than against the +∞ word) that came out 1 says x is real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have hw : (FloatOps.ofBits (F := Ideal) .f32 0x7F800000#32 : Ideal .f32) = (⊤ : EReal) := inf_word
  rw [Ideal.cmpf_def, Ideal.hostAbsf_def, Ideal.absf_def, hw] at h
  refine real_of_abs_lt_top x ?_
  by_contra hn
  simp [Ideal.cmp, hn] at h

/-- all(|a| < +∞) = 1, for an array a of any shape: every entry of a is a real number. -/
theorem isReal_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf (F := Ideal) a) (broadcastInDim s ![] hb (constant (F := Ideal) S_ .f32 0x7F800000#32)))
          (constantI S_ 1 1#1) hr hu j = 1#1) : IsReal a := by
  intro i
  have hi := Host.reduce_andi_all _ _ hr hu j e i
  exact real_of_cmp (a i) hi

/-- THE PRECONDITION DECODED, over any sixteen arrays of the argument shapes: if the conjunction of the fourteen bits
    all(|a| < +∞) is 1, each of the fourteen float arrays has only real entries. The conjunction is a chain of
    one-bit "and"s, 1 exactly when every bit is 1; each bit is then read back entry by entry. -/
theorem real_of_finite [Cert.Pre_finite_inputs.Facts]
    (a0 : FVec Ideal Cert.Pre_finite_inputs.S50000x128 .f32)
    (a1 : IVec Cert.Pre_finite_inputs.S800000 32)
    (a2 : IVec Cert.Pre_finite_inputs.S800000 32)
    (a3 : FVec Ideal Cert.Pre_finite_inputs.S800000 .f32)
    (a4 : FVec Ideal Cert.Pre_finite_inputs.S128x128 .f32)
    (a5 : FVec Ideal Cert.Pre_finite_inputs.S128 .f32)
    (a6 : FVec Ideal Cert.Pre_finite_inputs.S128x128 .f32)
    (a7 : FVec Ideal Cert.Pre_finite_inputs.S128 .f32)
    (a8 : FVec Ideal Cert.Pre_finite_inputs.S128x128 .f32)
    (a9 : FVec Ideal Cert.Pre_finite_inputs.S128 .f32)
    (a10 : FVec Ideal Cert.Pre_finite_inputs.S128x128 .f32)
    (a11 : FVec Ideal Cert.Pre_finite_inputs.S128 .f32)
    (a12 : FVec Ideal Cert.Pre_finite_inputs.S64x128 .f32)
    (a13 : FVec Ideal Cert.Pre_finite_inputs.S64 .f32)
    (a14 : FVec Ideal Cert.Pre_finite_inputs.S64x128 .f32)
    (a15 : FVec Ideal Cert.Pre_finite_inputs.S64 .f32)
    (h : Cert.Pre_finite_inputs.fn (F := Ideal) a0 a1 a2 a3 a4 a5 a6 a7 a8 a9 a10 a11 a12 a13 a14 a15 = (fun _ => 1#1)) :
    IsReal a0 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at e
  simp only [andi, IntOp.andi_eq_one] at e
  obtain ⟨⟨⟨⟨⟨⟨⟨⟨⟨⟨⟨⟨⟨h0, h3⟩, h4⟩, h5⟩, h6⟩, h7⟩, h8⟩, h9⟩, h10⟩, h11⟩, h12⟩, h13⟩, h14⟩, h15⟩ := e
  exact ⟨isReal_of_all a0 _ _ _ _ h0,
    isReal_of_all a3 _ _ _ _ h3,
    isReal_of_all a4 _ _ _ _ h4,
    isReal_of_all a5 _ _ _ _ h5,
    isReal_of_all a6 _ _ _ _ h6,
    isReal_of_all a7 _ _ _ _ h7,
    isReal_of_all a8 _ _ _ _ h8,
    isReal_of_all a9 _ _ _ _ h9,
    isReal_of_all a10 _ _ _ _ h10,
    isReal_of_all a11 _ _ _ _ h11,
    isReal_of_all a12 _ _ _ _ h12,
    isReal_of_all a13 _ _ _ _ h13,
    isReal_of_all a14 _ _ _ _ h14,
    isReal_of_all a15 _ _ _ _ h15⟩

/-- At the kernel program's memory: under its precondition, on every device, each of the fourteen float argument
    buffers has only real entries. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0))
      ∧ IsReal (m ((c.tc : Thread Cert.KernelIdeal.nD Cert.KernelIdeal.τ).loc Cert.KernelIdeal.main_arg3))
      ∧ IsReal (m ((c.tc : Thread Cert.KernelIdeal.nD Cert.KernelIdeal.τ).loc Cert.KernelIdeal.main_arg4))
      ∧ IsReal (m ((c.tc : Thread Cert.KernelIdeal.nD Cert.KernelIdeal.τ).loc Cert.KernelIdeal.main_arg5))
      ∧ IsReal (m ((c.tc : Thread Cert.KernelIdeal.nD Cert.KernelIdeal.τ).loc Cert.KernelIdeal.main_arg6))
      ∧ IsReal (m ((c.tc : Thread Cert.KernelIdeal.nD Cert.KernelIdeal.τ).loc Cert.KernelIdeal.main_arg7))
      ∧ IsReal (m ((c.tc : Thread Cert.KernelIdeal.nD Cert.KernelIdeal.τ).loc Cert.KernelIdeal.main_arg8))
      ∧ IsReal (m ((c.tc : Thread Cert.KernelIdeal.nD Cert.KernelIdeal.τ).loc Cert.KernelIdeal.main_arg9))
      ∧ IsReal (m ((c.tc : Thread Cert.KernelIdeal.nD Cert.KernelIdeal.τ).loc Cert.KernelIdeal.main_arg10))
      ∧ IsReal (m ((c.tc : Thread Cert.KernelIdeal.nD Cert.KernelIdeal.τ).loc Cert.KernelIdeal.main_arg11))
      ∧ IsReal (m ((c.tc : Thread Cert.KernelIdeal.nD Cert.KernelIdeal.τ).loc Cert.KernelIdeal.main_arg12))
      ∧ IsReal (m ((c.tc : Thread Cert.KernelIdeal.nD Cert.KernelIdeal.τ).loc Cert.KernelIdeal.main_arg13))
      ∧ IsReal (m ((c.tc : Thread Cert.KernelIdeal.nD Cert.KernelIdeal.τ).loc Cert.KernelIdeal.main_arg14))
      ∧ IsReal (m ((c.tc : Thread Cert.KernelIdeal.nD Cert.KernelIdeal.τ).loc Cert.KernelIdeal.main_arg15)) :=
  real_of_finite _ _ _ _ _ _ _ _ _ _ _ _ _ _ _ _ (hpre c)

end Cert.PreReal

end
-- ==== Proof.lean ====
/-
  The certificate: a two-layer graph network computed by four pipelined kernels among host operations equals, on the
  extended reals, its plain reference, whenever every float input is finite.

  One layer: normalise each node's feature row by its Euclidean norm (clipped below), pool it through a linear layer and
  a rectifier, aggregate the pooled features' power mean of exponent 2 along the edges (square, gather by source node,
  scale by the edge's value, add up by target node, take the root), and add two linear projections, of the pooled
  features and of the aggregate.

  * The three frames: the kernel programs' are the generated frame certificates; the reference's is its generated run
    with the result dropped.
  * The idealization rewrote nothing, so `preserves` has no conjunct.
  * The value. The kernel program's result is read off its run: the result buffer ends at the last segment boundary's
    contents (`RunNamed.run_named`), which is the specification's network of the launch arrays with the square spelt as a
    product and the root as the square root of the positive part (`Chain.W8_v41`, over the four regions' value lemmas).
    The reference's result is the same network with both spelt by the general power function (`RefValue.ref_value`, over
    the generated run read one operation at a time). The two spellings agree at every real number — a negative
    aggregate has power 0 at the exponent 1/2, and its positive part has square root 0 — and at +∞, but not at -∞; the
    precondition makes every input array real (`PreReal.real_of_pre`), realness is carried through pooling, aggregation
    and projection (`RealLayer`, `AggReal`), and so the aggregate is never -∞ in either layer (`layer128_pow_eq`,
    `layer64_pow_eq`). The edge aggregation is the same chain of host operations in both programs and is never opened.
-/
import proofs.«163570_j29978871726568_1_alg».proof.Defs
import proofs.«163570_j29978871726568_1_alg».proof.Proof.Gen.Kernel
import proofs.«163570_j29978871726568_1_alg».proof.Proof.Gen.Kernel.Skeleton
import proofs.«163570_j29978871726568_1_alg».proof.Proof.Gen.Kernel.Launch
import proofs.«163570_j29978871726568_1_alg».proof.Proof.Gen.Kernel.Points
import proofs.«163570_j29978871726568_1_alg».proof.Proof.Gen.Kernel.Frame
import proofs.«163570_j29978871726568_1_alg».proof.Proof.Gen.KernelIdeal
import proofs.«163570_j29978871726568_1_alg».proof.Proof.Gen.KernelIdeal.Skeleton
import proofs.«163570_j29978871726568_1_alg».proof.Proof.Gen.KernelIdeal.Launch
import proofs.«163570_j29978871726568_1_alg».proof.Proof.Gen.KernelIdeal.Points
import proofs.«163570_j29978871726568_1_alg».proof.Proof.Gen.KernelIdeal.Frame
import proofs.«163570_j29978871726568_1_alg».proof.Proof.Gen.ReferenceIdeal
import proofs.«163570_j29978871726568_1_alg».proof.Proof.Gen.Pre_finite_inputs
import proofs.«163570_j29978871726568_1_alg».proof.Proof.Gen.ReferenceIdeal.Run
import proofs.«163570_j29978871726568_1_alg».proof.Proof.Gen.ReferenceIdeal.Read
import proofs.«163570_j29978871726568_1_alg».proof.Proof.KernelRun
import proofs.«163570_j29978871726568_1_alg».proof.Proof.KernelChain
import proofs.«163570_j29978871726568_1_alg».proof.Proof.AggReal
import proofs.«163570_j29978871726568_1_alg».proof.Proof.RefValue
import proofs.«163570_j29978871726568_1_alg».proof.Proof.RealLayer
import proofs.«163570_j29978871726568_1_alg».proof.Proof.PreReal
import Idealize.ShloMosaic.Adequacy
import Idealize.ShloMosaic.Init

noncomputable section

namespace Cert.Proof

open Idealize.ShloMosaic Idealize.SL.Sem Idealize.ShloMosaic.TcCoe
open Cert.Sage Cert.Spec

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's aggregation is the kernel program's: the same host operations over the same shape records. -/
theorem agg_eq (x1 x2 : IVec Cert.KernelIdeal.S800000 32) (x3 : FVec Ideal Cert.KernelIdeal.S800000 .f32) :
    Cert.ReferenceIdeal.RefValue.aggR x1 x2 x3 = Cert.KernelIdeal.Chain.aggK x1 x2 x3 := rfl

/-- On real inputs the reference's spelling of the network is the kernel program's. -/
theorem net_pow_eq (agg : (Nodes.Idx → EReal) → Nodes.Idx → EReal) (hagg : ∀ f, IsReal f → IsReal (agg f))
    {x : Nodes.Idx → EReal} {pw0 pw1 : (Mat 128 128).Idx → EReal} {pb0 pb1 : (Mat 1 128).Idx → EReal}
    {u0 v0 : (Mat 128 128).Idx → EReal} {s0 t0 : (Mat 1 128).Idx → EReal}
    (u1 v1 : (Mat 128 64).Idx → EReal) (s1 t1 : (Mat 1 64).Idx → EReal)
    (hx : IsReal x) (hpw0 : IsReal pw0) (hpb0 : IsReal pb0) (hu0 : IsReal u0) (hs0 : IsReal s0) (hv0 : IsReal v0) (ht0 : IsReal t0)
    (hpw1 : IsReal pw1) (hpb1 : IsReal pb1) :
    layer64 sqPow rtPow agg (layer128 sqPow rtPow agg x pw0 pb0 u0 s0 v0 t0) pw1 pb1 u1 s1 v1 t1
      = layer64 sqMul rtSqrt agg (layer128 sqMul rtSqrt agg x pw0 pb0 u0 s0 v0 t0) pw1 pb1 u1 s1 v1 t1 := by
  rw [layer128_pow_eq agg hagg u0 s0 v0 t0 hx hpw0 hpb0]
  exact layer64_pow_eq agg hagg u1 s1 v1 t1 (isReal_layer128 agg hagg hx hpw0 hpb0 hu0 hs0 hv0 ht0) hpw1 hpb1

theorem algebraic : Cert.algebraic_KernelIdeal_ReferenceIdeal := by
  intro m ρ m' ρ' hpre hagree
  refine ⟨fun c => layer64 sqMul rtSqrt (Cert.KernelIdeal.Chain.agg m c) (Cert.KernelIdeal.Chain.X1 m c)
      (tr (m ((c.tc : Thread Cert.KernelIdeal.nD Cert.KernelIdeal.τ).loc Cert.KernelIdeal.main_arg10))) (row (m ((c.tc : Thread Cert.KernelIdeal.nD Cert.KernelIdeal.τ).loc Cert.KernelIdeal.main_arg11))) (tr (m ((c.tc : Thread Cert.KernelIdeal.nD Cert.KernelIdeal.τ).loc Cert.KernelIdeal.main_arg12))) (row (m ((c.tc : Thread Cert.KernelIdeal.nD Cert.KernelIdeal.τ).loc Cert.KernelIdeal.main_arg13))) (tr (m ((c.tc : Thread Cert.KernelIdeal.nD Cert.KernelIdeal.τ).loc Cert.KernelIdeal.main_arg14))) (row (m ((c.tc : Thread Cert.KernelIdeal.nD Cert.KernelIdeal.τ).loc Cert.KernelIdeal.main_arg15))), ?_, ?_⟩
  · exact (θ_run Cert.KernelIdeal.defs _ _).mono
      (fun r h c => ⟨(h c).1.trans (Cert.KernelIdeal.Chain.W8_v41 m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    obtain ⟨r0, r3, r4, r5, r6, r7, r8, r9, r10, r11, r12, r13, r14, r15⟩ := Cert.PreReal.real_of_pre m hpre c
    rw [Cert.ReferenceIdeal.Read.val_main_v78_eq, Cert.ReferenceIdeal.RefValue.ref_value,
      e0, e1, e2, e3, e4, e5, e6, e7, e8, e9, e10, e11, e12, e13, e14, e15, agg_eq]
    exact net_pow_eq _ (fun f hf => Cert.KernelIdeal.Chain.isReal_aggK _ _ r3 f hf) _ _ _ _
      r0 (isReal_tr r4) (isReal_row r5) (isReal_tr r6) (isReal_row r7) (isReal_tr r8) (isReal_row r9)
      (isReal_tr r10) (isReal_row r11)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
